-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x512 : Shape := ⟨3, ![16, 128, 512]⟩
abbrev S17x64 : Shape := ⟨2, ![17, 64]⟩
abbrev S1088x1088 : Shape := ⟨2, ![1088, 1088]⟩
abbrev S1088 : Shape := ⟨1, ![1088]⟩
abbrev S1x1088 : Shape := ⟨2, ![1, 1088]⟩
abbrev S1 : Shape := ⟨1, ![1]⟩
abbrev S_ : Shape := ⟨0, ![]⟩

class Facts : Prop where
  bcast_S_S16x128x512 : S_.BroadcastsInDim S16x128x512 (![] : Fin 0 → Fin S16x128x512.rank)
  reducesTo_S16x128x512_S_d0_1_2 : S16x128x512.ReducesTo [0, 1, 2] S_
  h_S_ : 0 < S_.numel
  bcast_S_S17x64 : S_.BroadcastsInDim S17x64 (![] : Fin 0 → Fin S17x64.rank)
  reducesTo_S17x64_S_d0_1 : S17x64.ReducesTo [0, 1] S_
  bcast_S_S1088x1088 : S_.BroadcastsInDim S1088x1088 (![] : Fin 0 → Fin S1088x1088.rank)
  reducesTo_S1088x1088_S_d0_1 : S1088x1088.ReducesTo [0, 1] S_
  bcast_S_S1088 : S_.BroadcastsInDim S1088 (![] : Fin 0 → Fin S1088.rank)
  reducesTo_S1088_S_d0 : S1088.ReducesTo [0] S_
  bcast_S_S1x1088 : S_.BroadcastsInDim S1x1088 (![] : Fin 0 → Fin S1x1088.rank)
  reducesTo_S1x1088_S_d0_1 : S1x1088.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1088 .f32) (main_arg5 : FVec F S1x1088 .f32) (main_arg6 : FVec F S1 .f32) (main_v13 : IVec S_ 1) (main_v16 : IVec S1088x1088 1) : IVec S_ 1 :=
  let main_c_5 : IVec S_ 1 := constantI S_ 1 1#1
  let main_v17 : IVec S_ 1 := (fun x v => Host.reduce IntOp.andi x v reducesTo_S1088x1088_S_d0_1 h_S_) main_v16 main_c_5
  let main_v18 : IVec S_ 1 := andi main_v13 main_v17
  let main_v19 : FVec F S1088 .f32 := Host.absf main_arg4
  let main_cst_6 : FVec F S_ .f32 := constant S_ .f32 0x7F800000#32
  let main_v20 : FVec F S1088 .f32 := broadcastInDim S1088 ![] bcast_S_S1088 main_cst_6
  let main_v21 : IVec S1088 1 := cmpf .olt main_v19 main_v20
  let main_c_7 : IVec S_ 1 := constantI S_ 1 1#1
  let main_v22 : IVec S_ 1 := (fun x v => Host.reduce IntOp.andi x v reducesTo_S1088_S_d0 h_S_) main_v21 main_c_7
  let main_v23 : IVec S_ 1 := andi main_v18 main_v22
  let main_v24 : FVec F S1x1088 .f32 := Host.absf main_arg5
  let main_cst_8 : FVec F S_ .f32 := constant S_ .f32 0x7F800000#32
  let main_v25 : FVec F S1x1088 .f32 := broadcastInDim S1x1088 ![] bcast_S_S1x1088 main_cst_8
  let main_v26 : IVec S1x1088 1 := cmpf .olt main_v24 main_v25
  let main_c_9 : IVec S_ 1 := constantI S_ 1 1#1
  let main_v27 : IVec S_ 1 := (fun x v => Host.reduce IntOp.andi x v reducesTo_S1x1088_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S16x128x512 .f32) (main_arg1 : FVec F S16x128x512 .f32) (main_arg2 : FVec F S17x64 .f32) (main_arg3 : FVec F S1088x1088 .f32) (main_arg4 : FVec F S1088 .f32) (main_arg5 : FVec F S1x1088 .f32) (main_arg6 : FVec F S1 .f32) : IVec S_ 1 :=
  let main_v0 : FVec F S16x128x512 .f32 := Host.absf main_arg0
  let main_cst : FVec F S_ .f32 := constant S_ .f32 0x7F800000#32
  let main_v1 : FVec F S16x128x512 .f32 := broadcastInDim S16x128x512 ![] bcast_S_S16x128x512 main_cst
  let main_v2 : IVec S16x128x512 1 := cmpf .olt main_v0 main_v1
  let main_c : IVec S_ 1 := constantI S_ 1 1#1
  let main_v3 : IVec S_ 1 := (fun x v => Host.reduce IntOp.andi x v reducesTo_S16x128x512_S_d0_1_2 h_S_) main_v2 main_c
  let main_v4 : FVec F S16x128x512 .f32 := Host.absf main_arg1
  let main_cst_0 : FVec F S_ .f32 := constant S_ .f32 0x7F800000#32
  let main_v5 : FVec F S16x128x512 .f32 := broadcastInDim S16x128x512 ![] bcast_S_S16x128x512 main_cst_0
  let main_v6 : IVec S16x128x512 1 := cmpf .olt main_v4 main_v5
  let main_c_1 : IVec S_ 1 := constantI S_ 1 1#1
  let main_v7 : IVec S_ 1 := (fun x v => Host.reduce IntOp.andi x v reducesTo_S16x128x512_S_d0_1_2 h_S_) main_v6 main_c_1
  let main_v8 : IVec S_ 1 := andi main_v3 main_v7
  let main_v9 : FVec F S17x64 .f32 := Host.absf main_arg2
  let main_cst_2 : FVec F S_ .f32 := constant S_ .f32 0x7F800000#32
  let main_v10 : FVec F S17x64 .f32 := broadcastInDim S17x64 ![] bcast_S_S17x64 main_cst_2
  let main_v11 : IVec S17x64 1 := cmpf .olt main_v9 main_v10
  let main_c_3 : IVec S_ 1 := constantI S_ 1 1#1
  let main_v12 : IVec S_ 1 := (fun x v => Host.reduce IntOp.andi x v reducesTo_S17x64_S_d0_1 h_S_) main_v11 main_c_3
  let main_v13 : IVec S_ 1 := andi main_v8 main_v12
  let main_v14 : FVec F S1088x1088 .f32 := Host.absf main_arg3
  let main_cst_4 : FVec F S_ .f32 := constant S_ .f32 0x7F800000#32
  let main_v15 : FVec F S1088x1088 .f32 := broadcastInDim S1088x1088 ![] bcast_S_S1088x1088 main_cst_4
  let main_v16 : IVec S1088x1088 1 := cmpf .olt main_v14 main_v15
  fn_part1 (F := F) main_arg4 main_arg5 main_arg6 main_v13 main_v16
-- ==== Kernel.lean ====
abbrev S16x128x512 : Shape := ⟨3, ![16, 128, 512]⟩
abbrev S17x64 : Shape := ⟨2, ![17, 64]⟩
abbrev S1088x1088 : Shape := ⟨2, ![1088, 1088]⟩
abbrev S1088 : Shape := ⟨1, ![1088]⟩
abbrev S1x1088 : Shape := ⟨2, ![1, 1088]⟩
abbrev S1 : Shape := ⟨1, ![1]⟩
abbrev S2104 : Shape := ⟨1, ![2104]⟩
abbrev S_ : Shape := ⟨0, ![]⟩
abbrev S2104x1 : Shape := ⟨2, ![2104, 1]⟩
abbrev S1x1 : Shape := ⟨2, ![1, 1]⟩
abbrev S16x2104x512 : Shape := ⟨3, ![16, 2104, 512]⟩
abbrev S16x2104x1024 : Shape := ⟨3, ![16, 2104, 1024]⟩
abbrev S2104x64 : Shape := ⟨2, ![2104, 64]⟩
abbrev S1x2104 : Shape := ⟨2, ![1, 2104]⟩
abbrev S2104x2104 : Shape := ⟨2, ![2104, 2104]⟩
abbrev S1x2104x64 : Shape := ⟨3, ![1, 2104, 64]⟩
abbrev S16x2104x64 : Shape := ⟨3, ![16, 2104, 64]⟩
abbrev S16x2104x1088 : Shape := ⟨3, ![16, 2104, 1088]⟩
abbrev S33664x1088 : Shape := ⟨2, ![33664, 1088]⟩
abbrev S33792x1088 : Shape := ⟨2, ![33792, 1088]⟩
abbrev S1088x1 : Shape := ⟨2, ![1088, 1]⟩
abbrev S33792 : Shape := ⟨1, ![33792]⟩
abbrev S1024x1088 : Shape := ⟨2, ![1024, 1088]⟩
abbrev S1024 : Shape := ⟨1, ![1024]⟩
abbrev S1024x1 : Shape := ⟨2, ![1024, 1]⟩
abbrev S33664 : Shape := ⟨1, ![33664]⟩
abbrev S16x2104 : Shape := ⟨2, ![16, 2104]⟩
abbrev S2104x2 : Shape := ⟨2, ![2104, 2]⟩

abbrev nBuf : Space → Nat
  | .hbm => 115
  | .vmem => 8
  | .smem => 0
  | _ => 0

abbrev bufTy : (tb : Table) → Fin (tcTables nBuf tb) → BufTy
  | .hbm, ⟨0, _⟩ => ⟨S16x128x512, .f32⟩
  | .hbm, ⟨1, _⟩ => ⟨S16x128x512, .f32⟩
  | .hbm, ⟨2, _⟩ => ⟨S17x64, .f32⟩
  | .hbm, ⟨3, _⟩ => ⟨S1088x1088, .f32⟩
  | .hbm, ⟨4, _⟩ => ⟨S1088, .f32⟩
  | .hbm, ⟨5, _⟩ => ⟨S1x1088, .f32⟩
  | .hbm, ⟨6, _⟩ => ⟨S1, .f32⟩
  | .hbm, ⟨7, _⟩ => ⟨S2104, .i32⟩
  | .hbm, ⟨8, _⟩ => ⟨S2104, .i32⟩
  | .hbm, ⟨9, _⟩ => ⟨S2104, .i32⟩
  | .hbm, ⟨10, _⟩ => ⟨S2104, .f32⟩
  | .hbm, ⟨11, _⟩ => ⟨S_, .i32⟩
  | .hbm, ⟨12, _⟩ => ⟨S2104, .i32⟩
  | .hbm, ⟨13, _⟩ => ⟨S2104, .i1⟩
  | .hbm, ⟨14, _⟩ => ⟨S_, .i32⟩
  | .hbm, ⟨15, _⟩ => ⟨S2104, .i32⟩
  | .hbm, ⟨16, _⟩ => ⟨S2104, .i32⟩
  | .hbm, ⟨17, _⟩ => ⟨S2104, .i32⟩
  | .hbm, ⟨18, _⟩ => ⟨S2104x1, .i32⟩
  | .hbm, ⟨19, _⟩ => ⟨S1, .i32⟩
  | .hbm, ⟨20, _⟩ => ⟨S_, .i32⟩
  | .hbm, ⟨21, _⟩ => ⟨S2104x1, .i32⟩
  | .hbm, ⟨22, _⟩ => ⟨S2104x1, .i1⟩
  | .hbm, ⟨23, _⟩ => ⟨S1x1, .i32⟩
  | .hbm, ⟨24, _⟩ => ⟨S2104x1, .i32⟩
  | .hbm, ⟨25, _⟩ => ⟨S2104x1, .i1⟩
  | .hbm, ⟨26, _⟩ => ⟨S2104x1, .i1⟩
  | .hbm, ⟨27, _⟩ => ⟨S_, .i1⟩
  | .hbm, ⟨28, _⟩ => ⟨S2104, .i1⟩
  | .hbm, ⟨29, _⟩ => ⟨S16x2104x512, .f32⟩
  | .hbm, ⟨30, _⟩ => ⟨S16x2104x512, .i1⟩
  | .hbm, ⟨31, _⟩ => ⟨S_, .f32⟩
  | .hbm, ⟨32, _⟩ => ⟨S16x2104x512, .f32⟩
  | .hbm, ⟨33, _⟩ => ⟨S16x2104x512, .f32⟩
  | .hbm, ⟨34, _⟩ => ⟨S_, .i32⟩
  | .hbm, ⟨35, _⟩ => ⟨S2104, .i32⟩
  | .hbm, ⟨36, _⟩ => ⟨S2104, .i1⟩
  | .hbm, ⟨37, _⟩ => ⟨S_, .i32⟩
  | .hbm, ⟨38, _⟩ => ⟨S2104, .i32⟩
  | .hbm, ⟨39, _⟩ => ⟨S2104, .i32⟩
  | .hbm, ⟨40, _⟩ => ⟨S2104, .i32⟩
  | .hbm, ⟨41, _⟩ => ⟨S2104x1, .i32⟩
  | .hbm, ⟨42, _⟩ => ⟨S1, .i32⟩
  | .hbm, ⟨43, _⟩ => ⟨S_, .i32⟩
  | .hbm, ⟨44, _⟩ => ⟨S2104x1, .i32⟩
  | .hbm, ⟨45, _⟩ => ⟨S2104x1, .i1⟩
  | .hbm, ⟨46, _⟩ => ⟨S1x1, .i32⟩
  | .hbm, ⟨47, _⟩ => ⟨S2104x1, .i32⟩
  | .hbm, ⟨48, _⟩ => ⟨S2104x1, .i1⟩
  | .hbm, ⟨49, _⟩ => ⟨S2104x1, .i1⟩
  | .hbm, ⟨50, _⟩ => ⟨S_, .i1⟩
  | .hbm, ⟨51, _⟩ => ⟨S2104, .i1⟩
  | .hbm, ⟨52, _⟩ => ⟨S16x2104x512, .f32⟩
  | .hbm, ⟨53, _⟩ => ⟨S16x2104x512, .i1⟩
  | .hbm, ⟨54, _⟩ => ⟨S_, .f32⟩
  | .hbm, ⟨55, _⟩ => ⟨S16x2104x512, .f32⟩
  | .hbm, ⟨56, _⟩ => ⟨S16x2104x512, .f32⟩
  | .hbm, ⟨57, _⟩ => ⟨S16x2104x1024, .f32⟩
  | .hbm, ⟨58, _⟩ => ⟨S_, .i32⟩
  | .hbm, ⟨59, _⟩ => ⟨S2104, .i32⟩
  | .hbm, ⟨60, _⟩ => ⟨S2104, .i1⟩
  | .hbm, ⟨61, _⟩ => ⟨S_, .i32⟩
  | .hbm, ⟨62, _⟩ => ⟨S2104, .i32⟩
  | .hbm, ⟨63, _⟩ => ⟨S2104, .i32⟩
  | .hbm, ⟨64, _⟩ => ⟨S2104, .i32⟩
  | .hbm, ⟨65, _⟩ => ⟨S2104x1, .i32⟩
  | .hbm, ⟨66, _⟩ => ⟨S1, .i32⟩
  | .hbm, ⟨67, _⟩ => ⟨S_, .i32⟩
  | .hbm, ⟨68, _⟩ => ⟨S2104x1, .i32⟩
  | .hbm, ⟨69, _⟩ => ⟨S2104x1, .i1⟩
  | .hbm, ⟨70, _⟩ => ⟨S1x1, .i32⟩
  | .hbm, ⟨71, _⟩ => ⟨S2104x1, .i32⟩
  | .hbm, ⟨72, _⟩ => ⟨S2104x1, .i1⟩
  | .hbm, ⟨73, _⟩ => ⟨S2104x1, .i1⟩
  | .hbm, ⟨74, _⟩ => ⟨S_, .i1⟩
  | .hbm, ⟨75, _⟩ => ⟨S2104, .i1⟩
  | .hbm, ⟨76, _⟩ => ⟨S2104x64, .f32⟩
  | .hbm, ⟨77, _⟩ => ⟨S2104x64, .i1⟩
  | .hbm, ⟨78, _⟩ => ⟨S_, .f32⟩
  | .hbm, ⟨79, _⟩ => ⟨S2104x64, .f32⟩
  | .hbm, ⟨80, _⟩ => ⟨S2104x64, .f32⟩
  | .hbm, ⟨81, _⟩ => ⟨S2104x1, .f32⟩
  | .hbm, ⟨82, _⟩ => ⟨S1x2104, .f32⟩
  | .hbm, ⟨83, _⟩ => ⟨S2104x2104, .f32⟩
  | .hbm, ⟨84, _⟩ => ⟨S2104x2104, .f32⟩
  | .hbm, ⟨85, _⟩ => ⟨S2104x2104, .f32⟩
  | .hbm, ⟨86, _⟩ => ⟨S2104x2104, .f32⟩
  | .hbm, ⟨87, _⟩ => ⟨S2104x2104, .f32⟩
  | .hbm, ⟨88, _⟩ => ⟨S2104x2104, .f32⟩
  | .hbm, ⟨89, _⟩ => ⟨S2104x64, .f32⟩
  | .hbm, ⟨90, _⟩ => ⟨S1x2104x64, .f32⟩
  | .hbm, ⟨91, _⟩ => ⟨S16x2104x64, .f32⟩
  | .hbm, ⟨92, _⟩ => ⟨S16x2104x1088, .f32⟩
  | .hbm, ⟨93, _⟩ => ⟨S33664x1088, .f32⟩
  | .hbm, ⟨94, _⟩ => ⟨S_, .i32⟩
  | .hbm, ⟨95, _⟩ => ⟨S_, .f32⟩
  | .hbm, ⟨96, _⟩ => ⟨S33792x1088, .f32⟩
  | .hbm, ⟨97, _⟩ => ⟨S33792x1088, .bf16⟩
  | .hbm, ⟨98, _⟩ => ⟨S1088x1088, .f32⟩
  | .hbm, ⟨99, _⟩ => ⟨S1088x1088, .bf16⟩
  | .hbm, ⟨100, _⟩ => ⟨S1088, .f32⟩
  | .hbm, ⟨101, _⟩ => ⟨S1088x1, .f32⟩
  | .hbm, ⟨102, _⟩ => ⟨S1088x1, .bf16⟩
  | .hbm, ⟨103, _⟩ => ⟨S33792, .f32⟩
  | .hbm, ⟨104, _⟩ => ⟨S33664, .f32⟩
  | .hbm, ⟨105, _⟩ => ⟨S16x2104, .f32⟩
  | .hbm, ⟨106, _⟩ => ⟨S_, .i32⟩
  | .hbm, ⟨107, _⟩ => ⟨S2104, .i32⟩
  | .hbm, ⟨108, _⟩ => ⟨S2104, .i32⟩
  | .hbm, ⟨109, _⟩ => ⟨S_, .i32⟩
  | .hbm, ⟨110, _⟩ => ⟨S2104, .i32⟩
  | .hbm, ⟨111, _⟩ => ⟨S2104, .i32⟩
  | .hbm, ⟨112, _⟩ => ⟨S2104x1, .i32⟩
  | .hbm, ⟨113, _⟩ => ⟨S2104x1, .i32⟩
  | .hbm, ⟨114, _⟩ => ⟨S2104x2, .i32⟩
  | .local _ .vmem, ⟨0, _⟩ => ⟨S1024x1088, .bf16⟩
  | .local _ .vmem, ⟨1, _⟩ => ⟨S1024x1088, .bf16⟩
  | .local _ .vmem, ⟨2, _⟩ => ⟨S1088x1088, .bf16⟩
  | .local _ .vmem, ⟨3, _⟩ => ⟨S1088, .f32⟩
  | .local _ .vmem, ⟨4, _⟩ => ⟨S1088x1, .bf16⟩
  | .local _ .vmem, ⟨5, _⟩ => ⟨S1, .f32⟩
  | .local _ .vmem, ⟨6, _⟩ => ⟨S1024, .f32⟩
  | .local _ .vmem, ⟨7, _⟩ => ⟨S1024, .f32⟩
  | _, _ => ⟨S16x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_cst : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v1 : Ref sig .tc := ⟨.hbm, 56, rfl⟩
abbrev main_v2 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_c_1 : Ref sig .tc := ⟨.hbm, 66, rfl⟩
abbrev main_call2_c_2 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_3 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_call2_cst : Ref sig .tc := ⟨.hbm, 78, rfl⟩
abbrev main_call2_v15 : Ref sig .tc := ⟨.hbm, 79, rfl⟩
abbrev main_v3 : Ref sig .tc := ⟨.hbm, 80, rfl⟩
abbrev main_v4 : Ref sig .tc := ⟨.hbm, 81, rfl⟩
abbrev main_v5 : Ref sig .tc := ⟨.hbm, 82, rfl⟩
abbrev main_v6 : Ref sig .tc := ⟨.hbm, 83, rfl⟩
abbrev main_v7 : Ref sig .tc := ⟨.hbm, 84, rfl⟩
abbrev main_v8 : Ref sig .tc := ⟨.hbm, 85, rfl⟩
abbrev main_v9 : Ref sig .tc := ⟨.hbm, 86, rfl⟩
abbrev main_v10 : Ref sig .tc := ⟨.hbm, 87, rfl⟩
abbrev main_v11 : Ref sig .tc := ⟨.hbm, 88, rfl⟩
abbrev main_v12 : Ref sig .tc := ⟨.hbm, 89, rfl⟩
abbrev main_v13 : Ref sig .tc := ⟨.hbm, 90, rfl⟩
abbrev main_v14 : Ref sig .tc := ⟨.hbm, 91, rfl⟩
abbrev main_v15 : Ref sig .tc := ⟨.hbm, 92, rfl⟩
abbrev main_v16 : Ref sig .tc := ⟨.hbm, 93, rfl⟩
abbrev main_c_2 : Ref sig .tc := ⟨.hbm, 94, rfl⟩
abbrev main_call3_v0 : Ref sig .tc := ⟨.hbm, 95, rfl⟩
abbrev main_v17 : Ref sig .tc := ⟨.hbm, 96, rfl⟩
abbrev main_v18 : Ref sig .tc := ⟨.hbm, 97, rfl⟩
abbrev main_v19 : Ref sig .tc := ⟨.hbm, 98, rfl⟩
abbrev main_v20 : Ref sig .tc := ⟨.hbm, 99, rfl⟩
abbrev main_v21 : Ref sig .tc := ⟨.hbm, 100, rfl⟩
abbrev main_v22 : Ref sig .tc := ⟨.hbm, 101, rfl⟩
abbrev main_v23 : Ref sig .tc := ⟨.hbm, 102, rfl⟩
abbrev main_v24 : Ref sig .tc := ⟨.hbm, 103, rfl⟩
abbrev main_v25 : Ref sig .tc := ⟨.hbm, 104, rfl⟩
abbrev main_v26 : Ref sig .tc := ⟨.hbm, 105, rfl⟩
abbrev main_c_3 : Ref sig .tc := ⟨.hbm, 106, rfl⟩
abbrev main_v27 : Ref sig .tc := ⟨.hbm, 107, rfl⟩
abbrev main_v28 : Ref sig .tc := ⟨.hbm, 108, rfl⟩
abbrev main_c_4 : Ref sig .tc := ⟨.hbm, 109, rfl⟩
abbrev main_v29 : Ref sig .tc := ⟨.hbm, 110, rfl⟩
abbrev main_v30 : Ref sig .tc := ⟨.hbm, 111, rfl⟩
abbrev main_v31 : Ref sig .tc := ⟨.hbm, 112, rfl⟩
abbrev main_v32 : Ref sig .tc := ⟨.hbm, 113, rfl⟩
abbrev main_v33 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x1088 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1088x1088 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1088 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1088x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S2104 : S_.BroadcastsInDim S2104 (![] : Fin 0 → Fin S2104.rank)
  bcast_S2104_S2104x1_0 : S2104.BroadcastsInDim S2104x1 (![0] : Fin 1 → Fin S2104x1.rank)
  bcast_S_S2104x1 : S_.BroadcastsInDim S2104x1 (![] : Fin 0 → Fin S2104x1.rank)
  bcast_S1_S1x1_1 : S1.BroadcastsInDim S1x1 (![1] : Fin 1 → Fin S1x1.rank)
  bcast_S1x1_S2104x1_0_1 : S1x1.BroadcastsInDim S2104x1 (![0, 1] : Fin 2 → Fin S2104x1.rank)
  reducesTo_S2104x1_S2104_d1 : S2104x1.ReducesTo [1] S2104
  h_S_ : 0 < S_.numel
  bcast_S2104_S16x2104x512_1 : S2104.BroadcastsInDim S16x2104x512 (![1] : Fin 1 → Fin S16x2104x512.rank)
  bcast_S_S16x2104x512 : S_.BroadcastsInDim S16x2104x512 (![] : Fin 0 → Fin S16x2104x512.rank)
  concatenates_S16x2104x512_S16x2104x512_S16x2104x1024_d2 : Shape.Concatenates [S16x2104x512, S16x2104x512] S16x2104x1024 2
  bcast_S2104_S2104x64_0 : S2104.BroadcastsInDim S2104x64 (![0] : Fin 1 → Fin S2104x64.rank)
  bcast_S_S2104x64 : S_.BroadcastsInDim S2104x64 (![] : Fin 0 → Fin S2104x64.rank)
  bcast_S2104_S1x2104_1 : S2104.BroadcastsInDim S1x2104 (![1] : Fin 1 → Fin S1x2104.rank)
  bcast_S2104x1_S2104x2104_0_1 : S2104x1.BroadcastsInDim S2104x2104 (![0, 1] : Fin 2 → Fin S2104x2104.rank)
  bcast_S1x2104_S2104x2104_0_1 : S1x2104.BroadcastsInDim S2104x2104 (![0, 1] : Fin 2 → Fin S2104x2104.rank)
  bcast_S2104x64_S1x2104x64_1_2 : S2104x64.BroadcastsInDim S1x2104x64 (![1, 2] : Fin 2 → Fin S1x2104x64.rank)
  bcast_S1x2104x64_S16x2104x64_0_1_2 : S1x2104x64.BroadcastsInDim S16x2104x64 (![0, 1, 2] : Fin 3 → Fin S16x2104x64.rank)
  concatenates_S16x2104x1024_S16x2104x64_S16x2104x1088_d2 : Shape.Concatenates [S16x2104x1024, S16x2104x64] S16x2104x1088 2
  shapeCasts_S16x2104x1088_S33664x1088 : S16x2104x1088.ShapeCasts S33664x1088
  pads_S33664x1088_S33792x1088_01280_000 : S33664x1088.Pads (![0, 0] : Fin 2 → Nat) ![128, 0] ![0, 0] S33792x1088
  bitsLt_bf16_f32 : FTy.bits .bf16 < FTy.bits .f32
  transposes_S1088x1088_S1088x1088_1_0 : S1088x1088.Transposes [1, 0] S1088x1088
  shapeCasts_S1x1088_S1088 : S1x1088.ShapeCasts S1088
  bcast_S1088_S1088x1_0 : S1088.BroadcastsInDim S1088x1 (![0] : Fin 1 → Fin S1088x1.rank)
  inb_S1024x1088_S1024x1088_0_0 : ∀ a, (![0, 0] : Fin 2 → Nat) a + S1024x1088.size a ≤ S1024x1088.size a
  h_S1024x1088 : 0 < S1024x1088.numel
  shapeCasts_S1024x1088_S1024x1088 : S1024x1088.ShapeCasts S1024x1088
  inb_S1088x1088_S1088x1088_0_0 : ∀ a, (![0, 0] : Fin 2 → Nat) a + S1088x1088.size a ≤ S1088x1088.size a
  h_S1088x1088 : 0 < S1088x1088.numel
  shapeCasts_S1088x1088_S1088x1088 : S1088x1088.ShapeCasts S1088x1088
  inb_S1088_S1088_0 : ∀ a, (![0] : Fin 1 → Nat) a + S1088.size a ≤ S1088.size a
  h_S1088 : 0 < S1088.numel
  shapeCasts_S1088_S1x1088 : S1088.ShapeCasts S1x1088
  broadcasts_S1x1088_S1024x1088 : S1x1088.Broadcasts S1024x1088
  inb_S1088x1_S1088x1_0_0 : ∀ a, (![0, 0] : Fin 2 → Nat) a + S1088x1.size a ≤ S1088x1.size a
  h_S1088x1 : 0 < S1088x1.numel
  shapeCasts_S1088x1_S1088x1 : S1088x1.ShapeCasts S1088x1
  shapeCasts_S1024x1_S1024 : S1024x1.ShapeCasts S1024
  inb_S1_S1_0 : ∀ a, (![0] : Fin 1 → Nat) a + S1.size a ≤ S1.size a
  h_S1 : 0 < S1.numel
  inpos_S1_p0 : ∀ a, (![0] : Fin 1 → Nat) a < S1.size a
  inb_S1024_S1024_0 : ∀ a, (![0] : Fin 1 → Nat) a + S1024.size a ≤ S1024.size a
  h_S1024 : 0 < S1024.numel
  slices_S33792_S33664_0 : S33792.Slices ![0] S33664
  shapeCasts_S33664_S16x2104 : S33664.ShapeCasts S16x2104
  concatenates_S2104x1_S2104x1_S2104x2_d1 : Shape.Concatenates [S2104x1, S2104x1] S2104x2 1
  gather_S16x128x512_S2104x1_S16x2104x512_02_1_n_n_1_1_161512_wf : GatherDims.WF S16x128x512 S2104x1 S16x2104x512 [0, 2] [1] [] [1] [] 1 ![16, 1, 512]
  gather_S17x64_S2104x1_S2104x64_1_0_n_n_0_1_164_wf : GatherDims.WF S17x64 S2104x1 S2104x64 [1] [0] [] [0] [] 1 ![1, 64]
  dot_S2104x2104_S2104x64_S2104x64_1_0_0_1_n_n_wf : DotDims.WF S2104x2104 S2104x64 S2104x64 [1] [0] [0] [1] [] []
  dot_S1024x1088_S1088x1088_S1024x1088_1_0_0_1_n_n_wf : DotDims.WF S1024x1088 S1088x1088 S1024x1088 [1] [0] [0] [1] [] []
  dot_S1024x1088_S1088x1_S1024x1_1_0_0_1_n_n_wf : DotDims.WF S1024x1088 S1088x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1088.size a ≤ S33792x1088.size a
  hwx0_0 : ∀ i : grid0.Coords, EltTy.bits .bf16 = 32 ∨ (Rect.block (s := S33792x1088) S1024x1088.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1088x1088.size a ≤ S1088x1088.size a
  hwx0_1 : ∀ i : grid0.Coords, EltTy.bits .bf16 = 32 ∨ (Rect.block (s := S1088x1088) S1088x1088.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1088.size a ≤ S1088.size a
  hwx0_2 : ∀ i : grid0.Coords, EltTy.bits .f32 = 32 ∨ (Rect.block (s := S1088) S1088.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1088x1.size a ≤ S1088x1.size a
  hwx0_3 : ∀ i : grid0.Coords, EltTy.bits .bf16 = 32 ∨ (Rect.block (s := S1088x1) S1088x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S33792.size a
  hwx0_5 : ∀ i : grid0.Coords, EltTy.bits .f32 = 32 ∨ (Rect.block (s := S33792) S1024.size (cc0_transform_5 i) (hinb0_5 i)).WholeWords (EltTy.packing .f32)

variable [Facts₀]

def gather_S16x128x512_S2104x1_S16x2104x512_02_1_n_n_1_1_161512 : GatherDims S16x128x512 S2104x1 S16x2104x512 where
  offsetDims := [0, 2]
  collapsedSliceDims := [1]
  operandBatchingDims := []
  startIndicesBatchingDims := []
  startIndexMap := [1]
  indexVectorDim := 1
  sliceSizes := ![16, 1, 512]
  wf := gather_S16x128x512_S2104x1_S16x2104x512_02_1_n_n_1_1_161512_wf
def gather_S17x64_S2104x1_S2104x64_1_0_n_n_0_1_164 : GatherDims S17x64 S2104x1 S2104x64 where
  offsetDims := [1]
  collapsedSliceDims := [0]
  operandBatchingDims := []
  startIndicesBatchingDims := []
  startIndexMap := [0]
  indexVectorDim := 1
  sliceSizes := ![1, 64]
  wf := gather_S17x64_S2104x1_S2104x64_1_0_n_n_0_1_164_wf
def dot_S2104x2104_S2104x64_S2104x64_1_0_0_1_n_n : DotDims S2104x2104 S2104x64 S2104x64 where
  lhsContracting := [1]
  rhsContracting := [0]
  lhsNonContracting := [0]
  rhsNonContracting := [1]
  lhsBatch := []
  rhsBatch := []
  wf := dot_S2104x2104_S2104x64_S2104x64_1_0_0_1_n_n_wf
def dot_S1024x1088_S1088x1088_S1024x1088_1_0_0_1_n_n : DotDims S1024x1088 S1088x1088 S1024x1088 where
  lhsContracting := [1]
  rhsContracting := [0]
  lhsNonContracting := [0]
  rhsNonContracting := [1]
  lhsBatch := []
  rhsBatch := []
  wf := dot_S1024x1088_S1088x1088_S1024x1088_1_0_0_1_n_n_wf
def dot_S1024x1088_S1088x1_S1024x1_1_0_0_1_n_n : DotDims S1024x1088 S1088x1 S1024x1 where
  lhsContracting := [1]
  rhsContracting := [0]
  lhsNonContracting := [0]
  rhsNonContracting := [1]
  lhsBatch := []
  rhsBatch := []
  wf := dot_S1024x1088_S1088x1_S1024x1_1_0_0_1_n_n_wf

abbrev win0_0 : Pipeline.Window sig grid0 :=
  Pipeline.Window.ofSpec (Memref.whole main_v18) S1024x1088.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1088x1088.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1088.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1088x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x128x512 : Shape := ⟨3, ![16, 128, 512]⟩
abbrev S17x64 : Shape := ⟨2, ![17, 64]⟩
abbrev S1088x1088 : Shape := ⟨2, ![1088, 1088]⟩
abbrev S1088 : Shape := ⟨1, ![1088]⟩
abbrev S1x1088 : Shape := ⟨2, ![1, 1088]⟩
abbrev S1 : Shape := ⟨1, ![1]⟩
abbrev S2104 : Shape := ⟨1, ![2104]⟩
abbrev S_ : Shape := ⟨0, ![]⟩
abbrev S2104x1 : Shape := ⟨2, ![2104, 1]⟩
abbrev S16x2104x512 : Shape := ⟨3, ![16, 2104, 512]⟩
abbrev S16x2104x1024 : Shape := ⟨3, ![16, 2104, 1024]⟩
abbrev S2104x64 : Shape := ⟨2, ![2104, 64]⟩
abbrev S1x2104 : Shape := ⟨2, ![1, 2104]⟩
abbrev S2104x2104 : Shape := ⟨2, ![2104, 2104]⟩
abbrev S1x2104x64 : Shape := ⟨3, ![1, 2104, 64]⟩
abbrev S16x2104x64 : Shape := ⟨3, ![16, 2104, 64]⟩
abbrev S16x2104x1088 : Shape := ⟨3, ![16, 2104, 1088]⟩
abbrev S1x1x1088 : Shape := ⟨3, ![1, 1, 1088]⟩
abbrev S16x2104x1 : Shape := ⟨3, ![16, 2104, 1]⟩
abbrev S1x1x1 : Shape := ⟨3, ![1, 1, 1]⟩
abbrev S16x2104 : Shape := ⟨2, ![16, 2104]⟩
abbrev S2104x2 : Shape := ⟨2, ![2104, 2]⟩

abbrev nBuf : Space → Nat
  | .hbm => 75
  | .vmem => 0
  | .smem => 0
  | _ => 0

abbrev bufTy : (tb : Table) → Fin (tcTables nBuf tb) → BufTy
  | .hbm, ⟨0, _⟩ => ⟨S16x128x512, .f32⟩
  | .hbm, ⟨1, _⟩ => ⟨S16x128x512, .f32⟩
  | .hbm, ⟨2, _⟩ => ⟨S17x64, .f32⟩
  | .hbm, ⟨3, _⟩ => ⟨S1088x1088, .f32⟩
  | .hbm, ⟨4, _⟩ => ⟨S1088, .f32⟩
  | .hbm, ⟨5, _⟩ => ⟨S1x1088, .f32⟩
  | .hbm, ⟨6, _⟩ => ⟨S1, .f32⟩
  | .hbm, ⟨7, _⟩ => ⟨S2104, .i32⟩
  | .hbm, ⟨8, _⟩ => ⟨S2104, .i32⟩
  | .hbm, ⟨9, _⟩ => ⟨S2104, .i32⟩
  | .hbm, ⟨10, _⟩ => ⟨S_, .i32⟩
  | .hbm, ⟨11, _⟩ => ⟨S2104, .i32⟩
  | .hbm, ⟨12, _⟩ => ⟨S2104, .i1⟩
  | .hbm, ⟨13, _⟩ => ⟨S_, .i32⟩
  | .hbm, ⟨14, _⟩ => ⟨S2104, .i32⟩
  | .hbm, ⟨15, _⟩ => ⟨S2104, .i32⟩
  | .hbm, ⟨16, _⟩ => ⟨S2104, .i32⟩
  | .hbm, ⟨17, _⟩ => ⟨S2104x1, .i32⟩
  | .hbm, ⟨18, _⟩ => ⟨S16x2104x512, .f32⟩
  | .hbm, ⟨19, _⟩ => ⟨S_, .i32⟩
  | .hbm, ⟨20, _⟩ => ⟨S2104, .i32⟩
  | .hbm, ⟨21, _⟩ => ⟨S2104, .i1⟩
  | .hbm, ⟨22, _⟩ => ⟨S_, .i32⟩
  | .hbm, ⟨23, _⟩ => ⟨S2104, .i32⟩
  | .hbm, ⟨24, _⟩ => ⟨S2104, .i32⟩
  | .hbm, ⟨25, _⟩ => ⟨S2104, .i32⟩
  | .hbm, ⟨26, _⟩ => ⟨S2104x1, .i32⟩
  | .hbm, ⟨27, _⟩ => ⟨S16x2104x512, .f32⟩
  | .hbm, ⟨28, _⟩ => ⟨S16x2104x1024, .f32⟩
  | .hbm, ⟨29, _⟩ => ⟨S_, .i32⟩
  | .hbm, ⟨30, _⟩ => ⟨S2104, .i32⟩
  | .hbm, ⟨31, _⟩ => ⟨S2104, .i32⟩
  | .hbm, ⟨32, _⟩ => ⟨S_, .i32⟩
  | .hbm, ⟨33, _⟩ => ⟨S2104, .i32⟩
  | .hbm, ⟨34, _⟩ => ⟨S2104, .i1⟩
  | .hbm, ⟨35, _⟩ => ⟨S_, .i32⟩
  | .hbm, ⟨36, _⟩ => ⟨S2104, .i32⟩
  | .hbm, ⟨37, _⟩ => ⟨S2104, .i32⟩
  | .hbm, ⟨38, _⟩ => ⟨S2104, .i32⟩
  | .hbm, ⟨39, _⟩ => ⟨S2104x1, .i32⟩
  | .hbm, ⟨40, _⟩ => ⟨S2104x64, .f32⟩
  | .hbm, ⟨41, _⟩ => ⟨S2104, .f32⟩
  | .hbm, ⟨42, _⟩ => ⟨S2104x1, .f32⟩
  | .hbm, ⟨43, _⟩ => ⟨S1x2104, .f32⟩
  | .hbm, ⟨44, _⟩ => ⟨S2104x2104, .f32⟩
  | .hbm, ⟨45, _⟩ => ⟨S2104x2104, .f32⟩
  | .hbm, ⟨46, _⟩ => ⟨S2104x2104, .f32⟩
  | .hbm, ⟨47, _⟩ => ⟨S2104x2104, .f32⟩
  | .hbm, ⟨48, _⟩ => ⟨S2104x2104, .f32⟩
  | .hbm, ⟨49, _⟩ => ⟨S2104x2104, .f32⟩
  | .hbm, ⟨50, _⟩ => ⟨S2104x64, .f32⟩
  | .hbm, ⟨51, _⟩ => ⟨S1x2104x64, .f32⟩
  | .hbm, ⟨52, _⟩ => ⟨S16x2104x64, .f32⟩
  | .hbm, ⟨53, _⟩ => ⟨S16x2104x1088, .f32⟩
  | .hbm, ⟨54, _⟩ => ⟨S16x2104x1088, .f32⟩
  | .hbm, ⟨55, _⟩ => ⟨S1x1x1088, .f32⟩
  | .hbm, ⟨56, _⟩ => ⟨S16x2104x1088, .f32⟩
  | .hbm, ⟨57, _⟩ => ⟨S16x2104x1088, .f32⟩
  | .hbm, ⟨58, _⟩ => ⟨S_, .f32⟩
  | .hbm, ⟨59, _⟩ => ⟨S16x2104x1088, .f32⟩
  | .hbm, ⟨60, _⟩ => ⟨S16x2104x1088, .f32⟩
  | .hbm, ⟨61, _⟩ => ⟨S16x2104x1, .f32⟩
  | .hbm, ⟨62, _⟩ => ⟨S1x1x1, .f32⟩
  | .hbm, ⟨63, _⟩ => ⟨S16x2104x1, .f32⟩
  | .hbm, ⟨64, _⟩ => ⟨S16x2104x1, .f32⟩
  | .hbm, ⟨65, _⟩ => ⟨S16x2104, .f32⟩
  | .hbm, ⟨66, _⟩ => ⟨S_, .i32⟩
  | .hbm, ⟨67, _⟩ => ⟨S2104, .i32⟩
  | .hbm, ⟨68, _⟩ => ⟨S2104, .i32⟩
  | .hbm, ⟨69, _⟩ => ⟨S_, .i32⟩
  | .hbm, ⟨70, _⟩ => ⟨S2104, .i32⟩
  | .hbm, ⟨71, _⟩ => ⟨S2104, .i32⟩
  | .hbm, ⟨72, _⟩ => ⟨S2104x1, .i32⟩
  | .hbm, ⟨73, _⟩ => ⟨S2104x1, .i32⟩
  | .hbm, ⟨74, _⟩ => ⟨S2104x2, .i32⟩
  | _, _ => ⟨S16x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_v0 : Ref sig .tc := ⟨.hbm, 11, rfl⟩
abbrev main_v1 : Ref sig .tc := ⟨.hbm, 12, rfl⟩
abbrev main_c_3 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_4 : Ref sig .tc := ⟨.hbm, 19, rfl⟩
abbrev main_v7 : Ref sig .tc := ⟨.hbm, 20, rfl⟩
abbrev main_v8 : Ref sig .tc := ⟨.hbm, 21, rfl⟩
abbrev main_c_5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_6 : Ref sig .tc := ⟨.hbm, 29, rfl⟩
abbrev main_v15 : Ref sig .tc := ⟨.hbm, 30, rfl⟩
abbrev main_v16 : Ref sig .tc := ⟨.hbm, 31, rfl⟩
abbrev main_c_7 : Ref sig .tc := ⟨.hbm, 32, rfl⟩
abbrev main_v17 : Ref sig .tc := ⟨.hbm, 33, rfl⟩
abbrev main_v18 : Ref sig .tc := ⟨.hbm, 34, rfl⟩
abbrev main_c_8 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call0_cst : Ref sig .tc := ⟨.hbm, 58, rfl⟩
abbrev main_call0_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]

class Facts₀ : Prop where
  bcast_S_S2104 : S_.BroadcastsInDim S2104 (![] : Fin 0 → Fin S2104.rank)
  bcast_S2104_S2104x1_0 : S2104.BroadcastsInDim S2104x1 (![0] : Fin 1 → Fin S2104x1.rank)
  concatenates_S16x2104x512_S16x2104x512_S16x2104x1024_d2 : Shape.Concatenates [S16x2104x512, S16x2104x512] S16x2104x1024 2
  bcast_S2104_S1x2104_1 : S2104.BroadcastsInDim S1x2104 (![1] : Fin 1 → Fin S1x2104.rank)
  bcast_S2104x1_S2104x2104_0_1 : S2104x1.BroadcastsInDim S2104x2104 (![0, 1] : Fin 2 → Fin S2104x2104.rank)
  bcast_S1x2104_S2104x2104_0_1 : S1x2104.BroadcastsInDim S2104x2104 (![0, 1] : Fin 2 → Fin S2104x2104.rank)
  bcast_S2104x64_S1x2104x64_1_2 : S2104x64.BroadcastsInDim S1x2104x64 (![1, 2] : Fin 2 → Fin S1x2104x64.rank)
  bcast_S1x2104x64_S16x2104x64_0_1_2 : S1x2104x64.BroadcastsInDim S16x2104x64 (![0, 1, 2] : Fin 3 → Fin S16x2104x64.rank)
  concatenates_S16x2104x1024_S16x2104x64_S16x2104x1088_d2 : Shape.Concatenates [S16x2104x1024, S16x2104x64] S16x2104x1088 2
  bcast_S1088_S1x1x1088_2 : S1088.BroadcastsInDim S1x1x1088 (![2] : Fin 1 → Fin S1x1x1088.rank)
  bcast_S1x1x1088_S16x2104x1088_0_1_2 : S1x1x1088.BroadcastsInDim S16x2104x1088 (![0, 1, 2] : Fin 3 → Fin S16x2104x1088.rank)
  bcast_S_S16x2104x1088 : S_.BroadcastsInDim S16x2104x1088 (![] : Fin 0 → Fin S16x2104x1088.rank)
  bcast_S1_S1x1x1_2 : S1.BroadcastsInDim S1x1x1 (![2] : Fin 1 → Fin S1x1x1.rank)
  bcast_S1x1x1_S16x2104x1_0_1_2 : S1x1x1.BroadcastsInDim S16x2104x1 (![0, 1, 2] : Fin 3 → Fin S16x2104x1.rank)
  shapeCasts_S16x2104x1_S16x2104 : S16x2104x1.ShapeCasts S16x2104
  concatenates_S2104x1_S2104x1_S2104x2_d1 : Shape.Concatenates [S2104x1, S2104x1] S2104x2 1
  gather_S16x128x512_S2104x1_S16x2104x512_02_1_n_n_1_1_161512_wf : GatherDims.WF S16x128x512 S2104x1 S16x2104x512 [0, 2] [1] [] [1] [] 1 ![16, 1, 512]
  gather_S17x64_S2104x1_S2104x64_1_0_n_n_0_1_164_wf : GatherDims.WF S17x64 S2104x1 S2104x64 [1] [0] [] [0] [] 1 ![1, 64]
  dot_S2104x2104_S2104x64_S2104x64_1_0_0_1_n_n_wf : DotDims.WF S2104x2104 S2104x64 S2104x64 [1] [0] [0] [1] [] []
  dot_S16x2104x1088_S1088x1088_S16x2104x1088_2_1_01_0_n_n_wf : DotDims.WF S16x2104x1088 S1088x1088 S16x2104x1088 [2] [1] [0, 1] [0] [] []
  dot_S16x2104x1088_S1x1088_S16x2104x1_2_1_01_0_n_n_wf : DotDims.WF S16x2104x1088 S1x1088 S16x2104x1 [2] [1] [0, 1] [0] [] []

variable [Facts₀]

def gather_S16x128x512_S2104x1_S16x2104x512_02_1_n_n_1_1_161512 : GatherDims S16x128x512 S2104x1 S16x2104x512 where
  offsetDims := [0, 2]
  collapsedSliceDims := [1]
  operandBatchingDims := []
  startIndicesBatchingDims := []
  startIndexMap := [1]
  indexVectorDim := 1
  sliceSizes := ![16, 1, 512]
  wf := gather_S16x128x512_S2104x1_S16x2104x512_02_1_n_n_1_1_161512_wf
def gather_S17x64_S2104x1_S2104x64_1_0_n_n_0_1_164 : GatherDims S17x64 S2104x1 S2104x64 where
  offsetDims := [1]
  collapsedSliceDims := [0]
  operandBatchingDims := []
  startIndicesBatchingDims := []
  startIndexMap := [0]
  indexVectorDim := 1
  sliceSizes := ![1, 64]
  wf := gather_S17x64_S2104x1_S2104x64_1_0_n_n_0_1_164_wf
def dot_S2104x2104_S2104x64_S2104x64_1_0_0_1_n_n : DotDims S2104x2104 S2104x64 S2104x64 where
  lhsContracting := [1]
  rhsContracting := [0]
  lhsNonContracting := [0]
  rhsNonContracting := [1]
  lhsBatch := []
  rhsBatch := []
  wf := dot_S2104x2104_S2104x64_S2104x64_1_0_0_1_n_n_wf
def dot_S16x2104x1088_S1088x1088_S16x2104x1088_2_1_01_0_n_n : DotDims S16x2104x1088 S1088x1088 S16x2104x1088 where
  lhsContracting := [2]
  rhsContracting := [1]
  lhsNonContracting := [0, 1]
  rhsNonContracting := [0]
  lhsBatch := []
  rhsBatch := []
  wf := dot_S16x2104x1088_S1088x1088_S16x2104x1088_2_1_01_0_n_n_wf
def dot_S16x2104x1088_S1x1088_S16x2104x1_2_1_01_0_n_n : DotDims S16x2104x1088 S1x1088 S16x2104x1 where
  lhsContracting := [2]
  rhsContracting := [1]
  lhsNonContracting := [0, 1]
  rhsNonContracting := [0]
  lhsBatch := []
  rhsBatch := []
  wf := dot_S16x2104x1088_S1x1088_S16x2104x1_2_1_01_0_n_n_wf

class Facts : Prop extends Facts₀ where

variable [Facts]
-- ==== Proof.Stages.lean ====
/-
  The stages of the two host programs, as pure functions of their operands.

  Both programs build, for each of the 16 batches and each of the 2104 windowed pairs (i, j) with |j - i| <= 8, the
  1088 features [H_emo[i] ; H_cause[j] ; smoothed[pair]], where smoothed = exp(-(rel - rel^T)^2) · pos_emb[rel + 8] is the
  Gaussian-smoothed relative-position embedding, and then apply the two-layer perceptron
  pred = (max(couples · W1^T + b1, 0)) · W2^T + b2. They differ in how the static pair tables enter (precomputed tables
  against arithmetic on tables; a row lookup that fills out-of-range rows with a sentinel against a plain lookup) and in how
  the perceptron is scheduled (row blocks of the flattened, zero-padded pair axis against one contraction).
  Each definition below is one stretch of host operations composed in program order, over operands that are variables.
-/
import proofs.«138655_j5403068858494_1_alg».proof.Proof.Gen.KernelIdeal
import proofs.«138655_j5403068858494_1_alg».proof.Proof.Gen.ReferenceIdeal
import Idealize.ShloMosaic.PureOps.Ideal

noncomputable section

namespace Cert.Stages

open Idealize.ShloMosaic Cert.KernelIdeal Cert.KernelIdeal.Facts₀

variable {F : FTy → Type} [FloatOps F]

/-! ## The static tables as vectors -/

/-- First program: row i of each pair, row j of each pair, rel + 8 of each pair, rel of each pair as a float. -/
def kEmo : IVec S2104 32 := fun i => Cert.KernelIdeal.lit0 (S2104.rowMajor i)
def kCau : IVec S2104 32 := fun i => Cert.KernelIdeal.lit1 (S2104.rowMajor i)
def kRel8 : IVec S2104 32 := fun i => Cert.KernelIdeal.lit2 (S2104.rowMajor i)
def kRelF : FVec F S2104 .f32 := fun i => FloatOps.ofBits .f32 (Cert.KernelIdeal.lit3 (S2104.rowMajor i))

/-- Second program: row i, row j and rel (signed) of each pair. -/
def rEmo : IVec S2104 32 := fun i => Cert.ReferenceIdeal.lit0 (S2104.rowMajor i)
def rCau : IVec S2104 32 := fun i => Cert.ReferenceIdeal.lit1 (S2104.rowMajor i)
def rRel : IVec S2104 32 := fun i => Cert.ReferenceIdeal.lit2 (S2104.rowMajor i)

/-- rel + 8, computed. -/
def rRel8 : IVec S2104 32 := addi rRel (broadcastInDim S2104 ![] bcast_S_S2104 (constantI S_ 32 8#32))

/-! ## Row lookups -/

/-- The index column of a lookup: a negative index is wrapped by the extent n, then the vector is made a column. -/
def wrapCol (n : BitVec 32) (idx : IVec S2104 32) : IVec S2104x1 32 :=
  broadcastInDim S2104x1 ![0] bcast_S2104_S2104x1_0
    (select (cmpi .slt idx (broadcastInDim S2104 ![] bcast_S_S2104 (constantI S_ 32 0#32)))
      (addi idx (broadcastInDim S2104 ![] bcast_S_S2104 (constantI S_ 32 n))) idx)

/-- Per pair: is the wrapped index within [0, hi]? (a conjunction over the column's one entry, from true). -/
def inRange (hi : BitVec 32) (col : IVec S2104x1 32) : IVec S2104 1 :=
  Host.reduce IntOp.andi
    (andi (cmpi .sge col (broadcastInDim S2104x1 ![] bcast_S_S2104x1 (constantI S_ 32 0#32)))
      (cmpi .sle col (broadcastInDim S2104x1 ![0, 1] bcast_S1x1_S2104x1_0_1 (broadcastInDim S1x1 ![1] bcast_S1_S1x1_1 (constantI S1 32 hi)))))
    (constantI S_ 1 1#1) reducesTo_S2104x1_S2104_d1 h_S_

/-- Plain lookup of utterance rows: out[b, p, d] = x[b, idx p, d]. -/
def gatherRows (x : FVec F S16x128x512 .f32) (idx : IVec S2104 32) : FVec F S16x2104x512 .f32 :=
  Host.gather gather_S16x128x512_S2104x1_S16x2104x512_02_1_n_n_1_1_161512 x (wrapCol 128#32 idx)

/-- Lookup of utterance rows that puts a sentinel where the index is out of range. -/
def takeRows (x : FVec F S16x128x512 .f32) (idx : IVec S2104 32) : FVec F S16x2104x512 .f32 :=
  select (broadcastInDim S16x2104x512 ![1] bcast_S2104_S16x2104x512_1 (inRange 127#32 (wrapCol 128#32 idx)))
    (Host.gather gather_S16x128x512_S2104x1_S16x2104x512_02_1_n_n_1_1_161512 x (wrapCol 128#32 idx))
    (broadcastInDim S16x2104x512 ![] bcast_S_S16x2104x512 (constant S_ .f32 0x7FC00000#32))

/-- Plain lookup of embedding rows: out[p, d] = x[idx p, d]. -/
def gatherEmb (x : FVec F S17x64 .f32) (idx : IVec S2104 32) : FVec F S2104x64 .f32 :=
  Host.gather gather_S17x64_S2104x1_S2104x64_1_0_n_n_0_1_164 x (wrapCol 17#32 idx)

/-- Lookup of embedding rows that puts a sentinel where the index is out of range. -/
def takeEmb (x : FVec F S17x64 .f32) (idx : IVec S2104 32) : FVec F S2104x64 .f32 :=
  select (broadcastInDim S2104x64 ![0] bcast_S2104_S2104x64_0 (inRange 16#32 (wrapCol 17#32 idx)))
    (Host.gather gather_S17x64_S2104x1_S2104x64_1_0_n_n_0_1_164 x (wrapCol 17#32 idx))
    (broadcastInDim S2104x64 ![] bcast_S_S2104x64 (constant S_ .f32 0x7FC00000#32))

/-! ## The smoothed embedding and the feature rows -/

/-- rel[p] - rel[q] over all pairs of pairs. -/
def relDiff (relf : FVec F S2104 .f32) : FVec F S2104x2104 .f32 :=
  subf (broadcastInDim S2104x2104 ![0, 1] bcast_S2104x1_S2104x2104_0_1 (broadcastInDim S2104x1 ![0] bcast_S2104_S2104x1_0 relf))
    (broadcastInDim S2104x2104 ![0, 1] bcast_S1x2104_S2104x2104_0_1 (broadcastInDim S1x2104 ![1] bcast_S2104_S1x2104_1 relf))

/-- exp(-(rel[p] - rel[q])^2) times the embedding rows, repeated over the batch. -/
def smooth (relf : FVec F S2104 .f32) (emb : FVec F S2104x64 .f32) : FVec F S16x2104x64 .f32 :=
  broadcastInDim S16x2104x64 ![0, 1, 2] bcast_S1x2104x64_S16x2104x64_0_1_2
    (broadcastInDim S1x2104x64 ![1, 2] bcast_S2104x64_S1x2104x64_1_2
      (Host.dotGeneral dot_S2104x2104_S2104x64_S2104x64_1_0_0_1_n_n none
        (Host.exp (Host.negf (mulf (relDiff relf) (relDiff relf)))) emb))

/-- [he ; hc ; sm] along the feature axis. -/
def couples (he hc : FVec F S16x2104x512 .f32) (sm : FVec F S16x2104x64 .f32) : FVec F S16x2104x1088 .f32 :=
  concatenate S16x2104x1088 2
    [⟨S16x2104x1024, concatenate S16x2104x1024 2 [⟨S16x2104x512, he⟩, ⟨S16x2104x512, hc⟩] concatenates_S16x2104x512_S16x2104x512_S16x2104x1024_d2⟩,
     ⟨S16x2104x64, sm⟩] concatenates_S16x2104x1024_S16x2104x64_S16x2104x1088_d2

/-- The feature rows as the first program builds them. -/
def couplesK (a0 a1 : FVec F S16x128x512 .f32) (a2 : FVec F S17x64 .f32) : FVec F S16x2104x1088 .f32 :=
  couples (takeRows a0 kEmo) (takeRows a1 kCau) (smooth kRelF (takeEmb a2 kRel8))

/-- The feature rows as the second program builds them. -/
def couplesR (a0 a1 : FVec F S16x128x512 .f32) (a2 : FVec F S17x64 .f32) : FVec F S16x2104x1088 .f32 :=
  couples (gatherRows a0 rEmo) (gatherRows a1 rCau) (smooth (sitofp .f32 rRel) (gatherEmb a2 rRel8))

/-! ## The first program's operands of its row-block computation, and its last steps -/

/-- The feature rows flattened to 33664 rows, 128 zero rows appended, narrowed. -/
def xPad (X : FVec F S16x2104x1088 .f32) : FVec F S33792x1088 .bf16 :=
  truncf .bf16 (pad S33792x1088 ![0, 0] ![128, 0] ![0, 0] (shapeCast S33664x1088 X shapeCasts_S16x2104x1088_S33664x1088)
    (sitofp .f32 (constantI S_ 32 0#32)) pads_S33664x1088_S33792x1088_01280_000 h_S_) bitsLt_bf16_f32

/-- W1 transposed, narrowed. -/
def w1T (a3 : FVec F S1088x1088 .f32) : FVec F S1088x1088 .bf16 :=
  truncf .bf16 (transpose S1088x1088 [1, 0] a3 transposes_S1088x1088_S1088x1088_1_0) bitsLt_bf16_f32

/-- W2's one row as a column, narrowed. -/
def w2Col (a5 : FVec F S1x1088 .f32) : FVec F S1088x1 .bf16 :=
  truncf .bf16 (broadcastInDim S1088x1 ![0] bcast_S1088_S1088x1_0 (shapeCast S1088 a5 shapeCasts_S1x1088_S1088)) bitsLt_bf16_f32

/-- The first 33664 of the 33792 results, as [16, 2104]. -/
def unpad (y : FVec F S33792 .f32) : FVec F S16x2104 .f32 :=
  shapeCast S16x2104 (extractStridedSlice S33664 ![0] y slices_S33792_S33664_0) shapeCasts_S33664_S16x2104

/-- The integer result: (i + 1, j + 1) per pair. -/
def pairs (c c0 : IVec S2104 32) : IVec S2104x2 32 :=
  concatenate S2104x2 1
    [⟨S2104x1, broadcastInDim S2104x1 ![0] bcast_S2104_S2104x1_0 (addi c (broadcastInDim S2104 ![] bcast_S_S2104 (constantI S_ 32 1#32)))⟩,
     ⟨S2104x1, broadcastInDim S2104x1 ![0] bcast_S2104_S2104x1_0 (addi c0 (broadcastInDim S2104 ![] bcast_S_S2104 (constantI S_ 32 1#32)))⟩]
    concatenates_S2104x1_S2104x1_S2104x2_d1

/-! ## The second program's perceptron -/

/-- (max(X · W1^T + b1, 0)) · W2^T + b2 by two contractions over the feature axis, the unit last axis dropped. -/
def mlpR (X : FVec F S16x2104x1088 .f32) (a3 : FVec F S1088x1088 .f32) (a4 : FVec F S1088 .f32) (a5 : FVec F S1x1088 .f32)
    (a6 : FVec F S1 .f32) : FVec F S16x2104 .f32 :=
  shapeCast S16x2104
    (addf
      (Host.dotGeneral Cert.ReferenceIdeal.dot_S16x2104x1088_S1x1088_S16x2104x1_2_1_01_0_n_n none
        (maximumf
          (addf (Host.dotGeneral Cert.ReferenceIdeal.dot_S16x2104x1088_S1088x1088_S16x2104x1088_2_1_01_0_n_n none X a3)
            (broadcastInDim S16x2104x1088 ![0, 1, 2] Cert.ReferenceIdeal.Facts₀.bcast_S1x1x1088_S16x2104x1088_0_1_2
              (broadcastInDim Cert.ReferenceIdeal.S1x1x1088 ![2] Cert.ReferenceIdeal.Facts₀.bcast_S1088_S1x1x1088_2 a4)))
          (broadcastInDim S16x2104x1088 ![] Cert.ReferenceIdeal.Facts₀.bcast_S_S16x2104x1088 (constant S_ .f32 0x00000000#32)))
        a5)
      (broadcastInDim Cert.ReferenceIdeal.S16x2104x1 ![0, 1, 2] Cert.ReferenceIdeal.Facts₀.bcast_S1x1x1_S16x2104x1_0_1_2
        (broadcastInDim Cert.ReferenceIdeal.S1x1x1 ![2] Cert.ReferenceIdeal.Facts₀.bcast_S1_S1x1x1_2 a6)))
    Cert.ReferenceIdeal.Facts₀.shapeCasts_S16x2104x1_S16x2104

/-! ## The perceptron at one feature row -/

/-- (max(x · W1^T + b1, 0)) · W2^T + b2 for one feature row x, on the extended reals:
    Σ_g max(Σ_f x f · w1 g f + b1 g, 0) · w2 g + b2. -/
def mlpAt (x : Fin 1088 → EReal) (w1 : Fin 1088 → Fin 1088 → EReal) (b1 : Fin 1088 → EReal) (w2 : Fin 1088 → EReal) (b2 : EReal) : EReal :=
  (∑ g : Fin 1088, max ((∑ f : Fin 1088, x f * w1 g f) + b1 g) 0 * w2 g) + b2

end Cert.Stages

end
-- ==== Proof.KernelHost.lean ====
/-
  What the row-block computation finds in its operand arrays: the host operations before it, composed.

  Window 0 stages the feature rows, flattened to 33664 rows, padded by 128 zero rows and narrowed; window 1 the first
  weight matrix transposed; window 2 the first bias; window 3 the second weight row as a column; window 4 the second bias.
  The two index tables the last host lines read are the tables themselves.
-/
import proofs.«138655_j5403068858494_1_alg».proof.Proof.Gen.KernelIdeal.Frame
import proofs.«138655_j5403068858494_1_alg».proof.Proof.Stages
import Idealize.ShloMosaic.Lib.StableHlo.Run

noncomputable section

namespace Cert.KernelIdeal.HostRead

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- A two-operand concatenation is a function of its two operands: rewriting may go on inside them. -/
theorem concat2_congr {α : Type} {t s₁ s₂ : Shape} {a : Fin t.rank} {x₁ x₁' : s₁.Idx → α} {x₂ x₂' : s₂.Idx → α}
    (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

attribute [local congr] concat2_congr

/-- Opens the stage definitions that occur in a goal (each is a composition of printed operations). -/
local macro "unfold_stages" : tactic =>
  `(tactic| simp only [Cert.Stages.xPad, Cert.Stages.couplesK, Cert.Stages.couples, Cert.Stages.takeRows, Cert.Stages.takeEmb,
    Cert.Stages.smooth, Cert.Stages.relDiff, Cert.Stages.inRange, Cert.Stages.wrapCol, Cert.Stages.kEmo, Cert.Stages.kCau,
    Cert.Stages.kRel8, Cert.Stages.kRelF, Cert.Stages.w1T, Cert.Stages.w2Col])

set_option maxHeartbeats 2000000 in
/-- The first weight matrix, transposed and narrowed. -/
theorem V_v20 (c : Dev nD) :
    @Eq (FVec Ideal S1088x1088 .bf16) (V m c main_v20) (Cert.Stages.w1T (m ((c.tc : Thread nD τ).loc main_arg3))) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, List.flatten_cons, List.flatten_nil, List.append_nil, List.cons_append, List.nil_append]
  after_results_simp
  try simp only [TRef.toBuf, TRef.ofBuf, cast_eq]
  try unfold_stages
  try rfl

set_option maxHeartbeats 2000000 in
/-- The feature rows, flattened, padded and narrowed. -/
theorem V_v18 (c : Dev nD) :
    @Eq (FVec Ideal S33792x1088 .bf16) (V m c main_v18)
      (Cert.Stages.xPad (Cert.Stages.couplesK (m ((c.tc : Thread nD τ).loc main_arg0)) (m ((c.tc : Thread nD τ).loc main_arg1)) (m ((c.tc : Thread nD τ).loc main_arg2)))) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, List.flatten_cons, List.flatten_nil, List.append_nil, List.cons_append, List.nil_append]
  after_results_simp
  try simp only [TRef.toBuf, TRef.ofBuf, cast_eq]
  try unfold_stages
  try rfl

set_option maxHeartbeats 2000000 in
/-- The second weight row as a column, narrowed. -/
theorem V_v23 (c : Dev nD) :
    @Eq (FVec Ideal S1088x1 .bf16) (V m c main_v23) (Cert.Stages.w2Col (m ((c.tc : Thread nD τ).loc main_arg5))) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, List.flatten_cons, List.flatten_nil, List.append_nil, List.cons_append, List.nil_append]
  after_results_simp
  try simp only [TRef.toBuf, TRef.ofBuf, cast_eq]
  try unfold_stages
  try rfl

set_option maxHeartbeats 2000000 in
/-- The table of the pairs' first rows. -/
theorem V0_c (c : Dev nD) : @Eq (IVec S2104 32) (V0 m c (Proc.devRef .tc main_c)) Cert.Stages.kEmo := by
  dsimp only [Gen.V0]
  simp only [Gen.hostOps0, Gen.hostOps0_1, Gen.hostOps0_2, Gen.hostOps0_3, Gen.hostOps0_4, Gen.hostOps0_5, Gen.hostOps0_6,
    Gen.hostOps0_7, List.flatten_cons, List.flatten_nil, List.append_nil, List.cons_append, List.nil_append]
  after_results_simp
  try simp only [TRef.toBuf, TRef.ofBuf, cast_eq]
  try unfold_stages
  try rfl

set_option maxHeartbeats 2000000 in
/-- The table of the pairs' second rows. -/
theorem V0_c_0 (c : Dev nD) : @Eq (IVec S2104 32) (V0 m c (Proc.devRef .tc main_c_0)) Cert.Stages.kCau := by
  dsimp only [Gen.V0]
  simp only [Gen.hostOps0, Gen.hostOps0_1, Gen.hostOps0_2, Gen.hostOps0_3, Gen.hostOps0_4, Gen.hostOps0_5, Gen.hostOps0_6,
    Gen.hostOps0_7, List.flatten_cons, List.flatten_nil, List.append_nil, List.cons_append, List.nil_append]
  after_results_simp
  try simp only [TRef.toBuf, TRef.ofBuf, cast_eq]
  try unfold_stages
  try rfl

end Cert.KernelIdeal.HostRead

end
-- ==== Proof.KernelBlocks.lean ====
/-
  The result array of the row-block computation as one function of its operand arrays.

  Grid point t (of 33) reads rows 1024 t … 1024 t + 1023 of the padded feature array and the whole of the weights and
  biases, and writes entries 1024 t … 1024 t + 1023 of the result; its value at local row r is the perceptron of feature
  row 1024 t + r. The 33 blocks tile the 33792 entries, so the array ends holding, at every entry p, the perceptron of
  feature row p.
-/
import proofs.«138655_j5403068858494_1_alg».proof.Proof.Gen.KernelIdeal.Frame
import proofs.«138655_j5403068858494_1_alg».proof.Proof.Stages
import Idealize.ShloMosaic.Lib.Pipeline.Value
import Idealize.ShloMosaic.Lib.ValueIdx

noncomputable section

namespace Cert.KernelIdeal.BlockValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- Entry p of the result: the perceptron of feature row p. -/
def rowMlp (xp : FVec Ideal S33792x1088 .bf16) (w1 : FVec Ideal S1088x1088 .bf16) (b1 : FVec Ideal S1088 .f32)
    (w2 : FVec Ideal S1088x1 .bf16) (b2 : FVec Ideal S1 .f32) : FVec Ideal S33792 .f32 :=
  fun i => Cert.Stages.mlpAt (fun f => xp (ix2 (⟨(i 0).val, (i 0).isLt⟩ : Fin 33792) f)) (fun g f => w1 (ix2 f g)) (fun g => b1 (ix1 g))
    (fun g => w2 (ix2 g (0 : Fin 1))) (b2 (ix1 (0 : Fin 1)))

/-- What the body computes from its blocks, as the specification reads it (proved where the body's value is read). -/
def PayloadReads : Prop :=
  ∀ (x0 : Vec Ideal S1024x1088 .bf16) (x1 : Vec Ideal S1088x1088 .bf16) (x2 : Vec Ideal S1088 .f32) (x3 : Vec Ideal S1088x1 .bf16)
    (x4 : Vec Ideal S1 .f32) (r : Fin 1024),
    k0_pay1 (F := Ideal) x0 x1 x2 x3 x4 (ix1 r)
      = Cert.Stages.mlpAt (fun f => x0 (ix2 r f)) (fun g f => x1 (ix2 f g)) (fun g => x2 (ix1 g)) (fun g => x3 (ix2 g (0 : Fin 1))) (x4 (ix1 (0 : Fin 1)))

theorem hz1 : (![0] : Fin 1 → Nat) = fun _ => 0 := funext fun a => by fin_cases a <;> rfl
theorem hz2 : (![0, 0] : Fin 2 → Nat) = fun _ => 0 := funext fun a => by fin_cases a <;> rfl

/-- The printed index maps over the grid: the feature rows and the result move with the point, everything else stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 1) = t.val :=
  (by decide +kernel : ∀ t : Fin grid0.N, _)

theorem t_lt (t : Fin cfg0.N) : t.val < 33 := by
  have h := t.isLt
  have hN : cfg0.N = 33 := N_0
  omega

/-! ## The blocks of the operand windows at a point -/

theorem read0 (c : Dev nD) (t : Fin cfg0.N) (r : Fin 1024) (f : Fin 1088) (p : Fin 33792) (hp : p.val = t.val * 1024 + r.val) :
    iblk m c 0 t (ix2 r f) = V m c main_v18 (ix2 p f) := by
  show V m c main_v18 (((cfg0.win 0).blk t).view.emb (ix2 r f)) = _
  refine congrArg _ ?_
  obtain ⟨e0, e1, -⟩ := idx_facts t
  funext a; apply Fin.ext
  match a with
  | ⟨0, _⟩ => show win0_0.index t (0 : Fin 2) * 1024 + 1 * r.val = p.val; omega
  | ⟨1, _⟩ => show win0_0.index t (1 : Fin 2) * 1088 + 1 * f.val = f.val; omega

theorem read1 (c : Dev nD) (t : Fin cfg0.N) (f g : Fin 1088) : iblk m c 1 t (ix2 f g) = V m c main_v20 (ix2 f g) := by
  show V m c main_v20 (((cfg0.win 1).blk t).view.emb (ix2 f g)) = _
  refine congrArg _ ?_
  obtain ⟨-, -, e0, e1, -⟩ := idx_facts t
  funext a; apply Fin.ext
  match a with
  | ⟨0, _⟩ => show win0_1.index t (0 : Fin 2) * 1088 + 1 * f.val = f.val; omega
  | ⟨1, _⟩ => show win0_1.index t (1 : Fin 2) * 1088 + 1 * g.val = g.val; omega

theorem read2 (c : Dev nD) (t : Fin cfg0.N) (g : Fin 1088) : iblk m c 2 t (ix1 g) = V m c main_arg4 (ix1 g) := by
  show V m c main_arg4 (((cfg0.win 2).blk t).view.emb (ix1 g)) = _
  refine congrArg _ ?_
  obtain ⟨-, -, -, -, e0, -⟩ := idx_facts t
  funext a; apply Fin.ext
  match a with
  | ⟨0, _⟩ => show win0_2.index t (0 : Fin 1) * 1088 + 1 * g.val = g.val; omega

theorem read3 (c : Dev nD) (t : Fin cfg0.N) (g : Fin 1088) (u : Fin 1) : iblk m c 3 t (ix2 g u) = V m c main_v23 (ix2 g u) := by
  show V m c main_v23 (((cfg0.win 3).blk t).view.emb (ix2 g u)) = _
  refine congrArg _ ?_
  obtain ⟨-, -, -, -, -, e0, e1, -⟩ := idx_facts t
  funext a; apply Fin.ext
  match a with
  | ⟨0, _⟩ => show win0_3.index t (0 : Fin 2) * 1088 + 1 * g.val = g.val; omega
  | ⟨1, _⟩ => show win0_3.index t (1 : Fin 2) * 1 + 1 * u.val = u.val; omega

theorem read4 (c : Dev nD) (t : Fin cfg0.N) (u : Fin 1) : iblk m c 4 t (ix1 u) = V m c main_arg6 (ix1 u) := by
  show V m c main_arg6 (((cfg0.win 4).blk t).view.emb (ix1 u)) = _
  refine congrArg _ ?_
  obtain ⟨-, -, -, -, -, -, -, e0, -⟩ := idx_facts t
  funext a; apply Fin.ext
  match a with
  | ⟨0, _⟩ => show win0_4.index t (0 : Fin 1) * 1 + 1 * u.val = u.val; omega

/-! ## What a point writes back, the cover, the array -/

/-- Point t writes block t of rowMlp of the operand arrays. -/
theorem flushed5_eq (hpay : PayloadReads) (c : Dev nD) (t : Fin cfg0.N) :
    (dats m 0 c).flushed 5 t = ((cfg0.win 5).blk t).view.read (Elt Ideal)
      (rowMlp (V m c main_v18) (V m c main_v20) (V m c main_arg4) (V m c main_v23) (V m c main_arg6)) := by
  show (cfg0.win 5).cut (grid0.coords t) ((dats m 0 c).after 5 t) = _
  rw [after0_5]
  unfold out0_5
  rw [View.canon_unit_zero hz1]
  simp only [View.ld_unit_zero (S := S1024x1088) hz2, View.ld_unit_zero (S := S1088x1088) hz2, View.ld_unit_zero (S := S1088) hz1,
    View.ld_unit_zero (S := S1088x1) hz2, View.ld_unit_zero (S := S1) hz1]
  funext j
  obtain ⟨r, rfl⟩ : ∃ r : Fin 1024, j = ix1 r := ⟨j 0, eq_ix1 j⟩
  have ht := t_lt t
  obtain ⟨-, -, -, -, -, -, -, -, e5⟩ := idx_facts t
  have hemb : ((((cfg0.win 5).blk t).view.emb (ix1 r)) 0).val = t.val * 1024 + r.val := by
    show win0_5.index t (0 : Fin 1) * 1024 + 1 * r.val = _
    omega
  show k0_pay1 (F := Ideal) (iblk m c 0 t) (iblk m c 1 t) (iblk m c 2 t) (iblk m c 3 t) (iblk m c 4 t) (ix1 r)
    = rowMlp (V m c main_v18) (V m c main_v20) (V m c main_arg4) (V m c main_v23) (V m c main_arg6) (((cfg0.win 5).blk t).view.emb (ix1 r))
  refine (hpay (iblk m c 0 t) (iblk m c 1 t) (iblk m c 2 t) (iblk m c 3 t) (iblk m c 4 t) r).trans ?_
  unfold rowMlp
  have h0 : (fun f : Fin 1088 => iblk m c 0 t (ix2 r f))
      = fun f => V m c main_v18 (ix2 (⟨((((cfg0.win 5).blk t).view.emb (ix1 r)) 0).val, ((((cfg0.win 5).blk t).view.emb (ix1 r)) 0).isLt⟩ : Fin 33792) f) :=
    funext fun f => read0 m c t r f _ hemb
  have h1 : (fun (g f : Fin 1088) => iblk m c 1 t (ix2 f g)) = fun g f => V m c main_v20 (ix2 f g) :=
    funext fun g => funext fun f => read1 m c t f g
  have h2 : (fun g : Fin 1088 => iblk m c 2 t (ix1 g)) = fun g => V m c main_arg4 (ix1 g) := funext fun g => read2 m c t g
  have h3 : (fun g : Fin 1088 => iblk m c 3 t (ix2 g (0 : Fin 1))) = fun g => V m c main_v23 (ix2 g (0 : Fin 1)) :=
    funext fun g => read3 m c t g 0
  have h4 : iblk m c 4 t (ix1 (0 : Fin 1)) = V m c main_arg6 (ix1 (0 : Fin 1)) := read4 m c t 0
  rw [h0, h1, h2, h3, h4]

/-- An index of the result array is in point t's block iff its coordinate is in the block's range. -/
theorem mem_blk5 (t : Fin cfg0.N) (i : S33792.Idx) :
    i ∈ ((cfg0.win 5).blk t).view.set ↔ ∀ a : Fin 1, win0_5.index t a * S1024.size a ≤ (i a).val ∧ (i a).val < win0_5.index t a * S1024.size a + S1024.size a := by
  show i ∈ ((View.whole main_v24).slice (win0_5.rect t)).set ↔ _
  rw [View.set_slice_whole, Rect.mem_set_unit]
  exact Iff.rfl

/-- Every entry is in the block of the point p / 1024. -/
theorem cover5 (i : S33792.Idx) : ∃ t : Fin cfg0.N, (cfg0.win 5).flush t = true ∧ i ∈ ((cfg0.win 5).blk t).view.set := by
  have hi : (i 0).val < 33792 := (i 0).isLt
  have hN : cfg0.N = 33 := N_0
  refine ⟨⟨(i 0).val / 1024, by rw [hN]; omega⟩, flush0_5 _, ?_⟩
  rw [mem_blk5]
  obtain ⟨-, -, -, -, -, -, -, -, e5⟩ := idx_facts ⟨(i 0).val / 1024, by rw [hN]; omega⟩
  intro a
  match a with
  | ⟨0, _⟩ =>
    show win0_5.index _ (0 : Fin 1) * 1024 ≤ (i 0).val ∧ (i 0).val < win0_5.index _ (0 : Fin 1) * 1024 + 1024
    rw [e5]
    show (i 0).val / 1024 * 1024 ≤ (i 0).val ∧ (i 0).val < (i 0).val / 1024 * 1024 + 1024
    omega

/-- The result array after the run. -/
theorem final5 (hpay : PayloadReads) (c : Dev nD) :
    (dats m 0 c).arrAt 5 cfg0.N = rowMlp (V m c main_v18) (V m c main_v20) (V m c main_arg4) (V m c main_v23) (V m c main_arg6) :=
  (dats m 0 c).arrAt_eq_of_cover 5 _ (fun t _ => flushed5_eq m hpay c t) cover5

end Cert.KernelIdeal.BlockValue

end
-- ==== Proof.KernelRun.lean ====
/-
  The first program's run, read as values: after the row-block computation the result array holds the perceptron of
  every padded feature row; the host lines after it keep the first 33664 entries as [16, 2104], and build the integer
  result from the two index tables. The arguments end as launched.
-/
import proofs.«138655_j5403068858494_1_alg».proof.Proof.Gen.KernelIdeal.Frame
import proofs.«138655_j5403068858494_1_alg».proof.Proof.Stages
import proofs.«138655_j5403068858494_1_alg».proof.Proof.KernelHost
import proofs.«138655_j5403068858494_1_alg».proof.Proof.KernelBlocks
import Idealize.ShloMosaic.Lib.StableHlo.Run

noncomputable section

namespace Cert.KernelIdeal.RunValue

open Cert.KernelIdeal Cert.KernelIdeal.Gen Idealize.ShloMosaic Idealize.ShloMosaic.TcCoe Idealize.SL.Sem
open Idealize.ShloMosaic.StableHlo
open Cert.KernelIdeal.BlockValue Cert.KernelIdeal.HostRead

variable (m : (ℓ : Loc nD τ sig) → Buf (Elt Ideal) ℓ) (ρ : Dev nD → PrngReg)

/-- The float result after the last host lines: the result array's first 33664 entries as [16, 2104]. -/
theorem tail_v26 (c : Dev nD) :
    @Eq (FVec Ideal S16x2104 .f32) (Pipeline.afterTail₀ cfgs (dats m) 0 (V0 m) [hostOps1] c main_v26)
      (Cert.Stages.unpad ((dats m 0 c).arrAt 5 cfg0.N)) := by
  unfold Pipeline.afterTail₀
  show StableHlo.after hostOps1 _ (Proc.devRef .tc main_v26) = _
  after_results
  rw [Pipeline.withArrays_arr spec0 launch0.win.arr_inj c _ _ 5]
  rfl

/-- The integer result after the last host lines: (i + 1, j + 1) per pair, from the two tables. -/
theorem tail_v33 (c : Dev nD) :
    @Eq (IVec S2104x2 32) (Pipeline.afterTail₀ cfgs (dats m) 0 (V0 m) [hostOps1] c main_v33)
      (Cert.Stages.pairs Cert.Stages.kEmo Cert.Stages.kCau) := by
  unfold Pipeline.afterTail₀
  show StableHlo.after hostOps1 _ (Proc.devRef .tc main_v33) = _
  after_results
  rw [Pipeline.withArrays_of_ne spec0 c (V0 m c) _ main_c (by exact (by decide : ∀ w, Pipeline.arrRef spec0 w ≠ main_c)),
    Pipeline.withArrays_of_ne spec0 c (V0 m c) _ main_c_0 (by exact (by decide : ∀ w, Pipeline.arrRef spec0 w ≠ main_c_0)),
    V0_c m c, V0_c_0 m c]
  rfl

/-- The run with both results named as functions of the arguments. -/
theorem run (hpay : PayloadReads) : θ_run defs (onTc (τ := τ) (main (F := Ideal))) ⟨m, fun _ => 0, ρ⟩ fun r => ∀ c : Dev nD,
      r.2.mem ((c.tc : Thread nD τ).loc main_v26)
        = Cert.Stages.unpad (rowMlp
            (Cert.Stages.xPad (Cert.Stages.couplesK (m ((c.tc : Thread nD τ).loc main_arg0)) (m ((c.tc : Thread nD τ).loc main_arg1)) (m ((c.tc : Thread nD τ).loc main_arg2))))
            (Cert.Stages.w1T (m ((c.tc : Thread nD τ).loc main_arg3))) (m ((c.tc : Thread nD τ).loc main_arg4))
            (Cert.Stages.w2Col (m ((c.tc : Thread nD τ).loc main_arg5))) (m ((c.tc : Thread nD τ).loc main_arg6)))
      ∧ r.2.mem ((c.tc : Thread nD τ).loc main_v33) = Cert.Stages.pairs Cert.Stages.kEmo Cert.Stages.kCau
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨
      (((h c).2 main_v26 (Pipeline.mem_restRefs_of main_v26 (by decide) (by decide))).trans (tail_v26 m c)).trans (by
        rw [final5 m hpay c, V_v18 m c, V_v20 m c, V_v23 m c, V_main_arg4 m c, V_main_arg6 m c]),
      ((h c).2 main_v33 (Pipeline.mem_restRefs_of main_v33 (by decide) (by decide))).trans (tail_v33 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 2).trans (((dats m 0 c).arrAt_in 2 rfl _).trans ((A_eq m c 2).trans (V_main_arg4 m c))),
      (((h c).2 main_arg5 (Pipeline.mem_restRefs_of main_arg5 (by decide) (by decide))).trans (W_main_arg5 m (dats m) c)),
      ((h c).1 4).trans (((dats m 0 c).arrAt_in 4 rfl _).trans ((A_eq m c 4).trans (V_main_arg6 m c)))⟩)
    (run_main m ρ)

end Cert.KernelIdeal.RunValue

end
-- ==== Proof.RefRunOps.lean ====
/-
  The second program as a list of its host operations.

  The program is a straight line of 68 operations on tensor values: 59 of its own up to the call, the three of the
  function it calls (the zero, its broadcast, the maximum) written at the call site over the call's own buffers, and
  six more after it. The three dense tables are written by their names as vectors (row i, row j and signed offset of
  each of the 2104 pairs). Running the program is running the list in order.
-/
import proofs.«138655_j5403068858494_1_alg».proof.Proof.Gen.ReferenceIdeal
import proofs.«138655_j5403068858494_1_alg».proof.Proof.Stages
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The 68 operations, in program order, the called function's three at the call. -/
abbrev ops : List (HloOp τ sig (Elt F)) :=
  [ StableHlo.nullary main_c Cert.Stages.rEmo,
    StableHlo.nullary main_c_0 Cert.Stages.rCau,
    StableHlo.nullary main_c_1 Cert.Stages.rRel,
    StableHlo.nullary main_c_2 (constantI S_ 32 0#32),
    StableHlo.unary main_c_2 main_v0 (broadcastInDim S2104 ![] bcast_S_S2104 : (⟨S_, .i32⟩ : BufTy).Contents (Elt F) → (⟨S2104, .i32⟩ : BufTy).Contents (Elt F)),
    StableHlo.binary main_c main_v0 main_v1 (cmpi .slt : (⟨S2104, .i32⟩ : BufTy).Contents (Elt F) → (⟨S2104, .i32⟩ : BufTy).Contents (Elt F) → (⟨S2104, .i1⟩ : BufTy).Contents (Elt F)),
    StableHlo.nullary main_c_3 (constantI S_ 32 128#32),
    StableHlo.unary main_c_3 main_v2 (broadcastInDim S2104 ![] bcast_S_S2104 : (⟨S_, .i32⟩ : BufTy).Contents (Elt F) → (⟨S2104, .i32⟩ : BufTy).Contents (Elt F)),
    StableHlo.binary main_c main_v2 main_v3 (addi : (⟨S2104, .i32⟩ : BufTy).Contents (Elt F) → (⟨S2104, .i32⟩ : BufTy).Contents (Elt F) → (⟨S2104, .i32⟩ : BufTy).Contents (Elt F)),
    StableHlo.ternary main_v1 main_v3 main_c main_v4 (select : (⟨S2104, .i1⟩ : BufTy).Contents (Elt F) → (⟨S2104, .i32⟩ : BufTy).Contents (Elt F) → (⟨S2104, .i32⟩ : BufTy).Contents (Elt F) → (⟨S2104, .i32⟩ : BufTy).Contents (Elt F)),
    StableHlo.unary main_v4 main_v5 (broadcastInDim S2104x1 ![0] bcast_S2104_S2104x1_0 : (⟨S2104, .i32⟩ : BufTy).Contents (Elt F) → (⟨S2104x1, .i32⟩ : BufTy).Contents (Elt F)),
    StableHlo.binary main_arg0 main_v5 main_v6 ((fun x i => Host.gather gather_S16x128x512_S2104x1_S16x2104x512_02_1_n_n_1_1_161512 x i) : (⟨S16x128x512, .f32⟩ : BufTy).Contents (Elt F) → (⟨S2104x1, .i32⟩ : BufTy).Contents (Elt F) → (⟨S16x2104x512, .f32⟩ : BufTy).Contents (Elt F)),
    StableHlo.nullary main_c_4 (constantI S_ 32 0#32),
    StableHlo.unary main_c_4 main_v7 (broadcastInDim S2104 ![] bcast_S_S2104 : (⟨S_, .i32⟩ : BufTy).Contents (Elt F) → (⟨S2104, .i32⟩ : BufTy).Contents (Elt F)),
    StableHlo.binary main_c_0 main_v7 main_v8 (cmpi .slt : (⟨S2104, .i32⟩ : BufTy).Contents (Elt F) → (⟨S2104, .i32⟩ : BufTy).Contents (Elt F) → (⟨S2104, .i1⟩ : BufTy).Contents (Elt F)),
    StableHlo.nullary main_c_5 (constantI S_ 32 128#32),
    StableHlo.unary main_c_5 main_v9 (broadcastInDim S2104 ![] bcast_S_S2104 : (⟨S_, .i32⟩ : BufTy).Contents (Elt F) → (⟨S2104, .i32⟩ : BufTy).Contents (Elt F)),
    StableHlo.binary main_c_0 main_v9 main_v10 (addi : (⟨S2104, .i32⟩ : BufTy).Contents (Elt F) → (⟨S2104, .i32⟩ : BufTy).Contents (Elt F) → (⟨S2104, .i32⟩ : BufTy).Contents (Elt F)),
    StableHlo.ternary main_v8 main_v10 main_c_0 main_v11 (select : (⟨S2104, .i1⟩ : BufTy).Contents (Elt F) → (⟨S2104, .i32⟩ : BufTy).Contents (Elt F) → (⟨S2104, .i32⟩ : BufTy).Contents (Elt F) → (⟨S2104, .i32⟩ : BufTy).Contents (Elt F)),
    StableHlo.unary main_v11 main_v12 (broadcastInDim S2104x1 ![0] bcast_S2104_S2104x1_0 : (⟨S2104, .i32⟩ : BufTy).Contents (Elt F) → (⟨S2104x1, .i32⟩ : BufTy).Contents (Elt F)),
    StableHlo.binary main_arg1 main_v12 main_v13 ((fun x i => Host.gather gather_S16x128x512_S2104x1_S16x2104x512_02_1_n_n_1_1_161512 x i) : (⟨S16x128x512, .f32⟩ : BufTy).Contents (Elt F) → (⟨S2104x1, .i32⟩ : BufTy).Contents (Elt F) → (⟨S16x2104x512, .f32⟩ : BufTy).Contents (Elt F)),
    StableHlo.binary main_v6 main_v13 main_v14 ((fun a b => concatenate S16x2104x1024 2 [⟨S16x2104x512, a⟩, ⟨S16x2104x512, b⟩] concatenates_S16x2104x512_S16x2104x512_S16x2104x1024_d2) : (⟨S16x2104x512, .f32⟩ : BufTy).Contents (Elt F) → (⟨S16x2104x512, .f32⟩ : BufTy).Contents (Elt F) → (⟨S16x2104x1024, .f32⟩ : BufTy).Contents (Elt F)),
    StableHlo.nullary main_c_6 (constantI S_ 32 8#32),
    StableHlo.unary main_c_6 main_v15 (broadcastInDim S2104 ![] bcast_S_S2104 : (⟨S_, .i32⟩ : BufTy).Contents (Elt F) → (⟨S2104, .i32⟩ : BufTy).Contents (Elt F)),
    StableHlo.binary main_c_1 main_v15 main_v16 (addi : (⟨S2104, .i32⟩ : BufTy).Contents (Elt F) → (⟨S2104, .i32⟩ : BufTy).Contents (Elt F) → (⟨S2104, .i32⟩ : BufTy).Contents (Elt F)),
    StableHlo.nullary main_c_7 (constantI S_ 32 0#32),
    StableHlo.unary main_c_7 main_v17 (broadcastInDim S2104 ![] bcast_S_S2104 : (⟨S_, .i32⟩ : BufTy).Contents (Elt F) → (⟨S2104, .i32⟩ : BufTy).Contents (Elt F)),
    StableHlo.binary main_v16 main_v17 main_v18 (cmpi .slt : (⟨S2104, .i32⟩ : BufTy).Contents (Elt F) → (⟨S2104, .i32⟩ : BufTy).Contents (Elt F) → (⟨S2104, .i1⟩ : BufTy).Contents (Elt F)),
    StableHlo.nullary main_c_8 (constantI S_ 32 17#32),
    StableHlo.unary main_c_8 main_v19 (broadcastInDim S2104 ![] bcast_S_S2104 : (⟨S_, .i32⟩ : BufTy).Contents (Elt F) → (⟨S2104, .i32⟩ : BufTy).Contents (Elt F)),
    StableHlo.binary main_v16 main_v19 main_v20 (addi : (⟨S2104, .i32⟩ : BufTy).Contents (Elt F) → (⟨S2104, .i32⟩ : BufTy).Contents (Elt F) → (⟨S2104, .i32⟩ : BufTy).Contents (Elt F)),
    StableHlo.ternary main_v18 main_v20 main_v16 main_v21 (select : (⟨S2104, .i1⟩ : BufTy).Contents (Elt F) → (⟨S2104, .i32⟩ : BufTy).Contents (Elt F) → (⟨S2104, .i32⟩ : BufTy).Contents (Elt F) → (⟨S2104, .i32⟩ : BufTy).Contents (Elt F)),
    StableHlo.unary main_v21 main_v22 (broadcastInDim S2104x1 ![0] bcast_S2104_S2104x1_0 : (⟨S2104, .i32⟩ : BufTy).Contents (Elt F) → (⟨S2104x1, .i32⟩ : BufTy).Contents (Elt F)),
    StableHlo.binary main_arg2 main_v22 main_v23 ((fun x i => Host.gather gather_S17x64_S2104x1_S2104x64_1_0_n_n_0_1_164 x i) : (⟨S17x64, .f32⟩ : BufTy).Contents (Elt F) → (⟨S2104x1, .i32⟩ : BufTy).Contents (Elt F) → (⟨S2104x64, .f32⟩ : BufTy).Contents (Elt F)),
    StableHlo.unary main_c_1 main_v24 (sitofp .f32 : (⟨S2104, .i32⟩ : BufTy).Contents (Elt F) → (⟨S2104, .f32⟩ : BufTy).Contents (Elt F)),
    StableHlo.unary main_v24 main_v25 (broadcastInDim S2104x1 ![0] bcast_S2104_S2104x1_0 : (⟨S2104, .f32⟩ : BufTy).Contents (Elt F) → (⟨S2104x1, .f32⟩ : BufTy).Contents (Elt F)),
    StableHlo.unary main_v24 main_v26 (broadcastInDim S1x2104 ![1] bcast_S2104_S1x2104_1 : (⟨S2104, .f32⟩ : BufTy).Contents (Elt F) → (⟨S1x2104, .f32⟩ : BufTy).Contents (Elt F)),
    StableHlo.unary main_v25 main_v27 (broadcastInDim S2104x2104 ![0, 1] bcast_S2104x1_S2104x2104_0_1 : (⟨S2104x1, .f32⟩ : BufTy).Contents (Elt F) → (⟨S2104x2104, .f32⟩ : BufTy).Contents (Elt F)),
    StableHlo.unary main_v26 main_v28 (broadcastInDim S2104x2104 ![0, 1] bcast_S1x2104_S2104x2104_0_1 : (⟨S1x2104, .f32⟩ : BufTy).Contents (Elt F) → (⟨S2104x2104, .f32⟩ : BufTy).Contents (Elt F)),
    StableHlo.binary main_v27 main_v28 main_v29 (subf : (⟨S2104x2104, .f32⟩ : BufTy).Contents (Elt F) → (⟨S2104x2104, .f32⟩ : BufTy).Contents (Elt F) → (⟨S2104x2104, .f32⟩ : BufTy).Contents (Elt F)),
    StableHlo.binary main_v29 main_v29 main_v30 (mulf : (⟨S2104x2104, .f32⟩ : BufTy).Contents (Elt F) → (⟨S2104x2104, .f32⟩ : BufTy).Contents (Elt F) → (⟨S2104x2104, .f32⟩ : BufTy).Contents (Elt F)),
    StableHlo.unary main_v30 main_v31 (Host.negf : (⟨S2104x2104, .f32⟩ : BufTy).Contents (Elt F) → (⟨S2104x2104, .f32⟩ : BufTy).Contents (Elt F)),
    StableHlo.unary main_v31 main_v32 (Host.exp : (⟨S2104x2104, .f32⟩ : BufTy).Contents (Elt F) → (⟨S2104x2104, .f32⟩ : BufTy).Contents (Elt F)),
    StableHlo.binary main_v32 main_v23 main_v33 ((fun l r => Host.dotGeneral dot_S2104x2104_S2104x64_S2104x64_1_0_0_1_n_n none l r) : (⟨S2104x2104, .f32⟩ : BufTy).Contents (Elt F) → (⟨S2104x64, .f32⟩ : BufTy).Contents (Elt F) → (⟨S2104x64, .f32⟩ : BufTy).Contents (Elt F)),
    StableHlo.unary main_v33 main_v34 (broadcastInDim S1x2104x64 ![1, 2] bcast_S2104x64_S1x2104x64_1_2 : (⟨S2104x64, .f32⟩ : BufTy).Contents (Elt F) → (⟨S1x2104x64, .f32⟩ : BufTy).Contents (Elt F)),
    StableHlo.unary main_v34 main_v35 (broadcastInDim S16x2104x64 ![0, 1, 2] bcast_S1x2104x64_S16x2104x64_0_1_2 : (⟨S1x2104x64, .f32⟩ : BufTy).Contents (Elt F) → (⟨S16x2104x64, .f32⟩ : BufTy).Contents (Elt F)),
    StableHlo.binary main_v14 main_v35 main_v36 ((fun a b => concatenate S16x2104x1088 2 [⟨S16x2104x1024, a⟩, ⟨S16x2104x64, b⟩] concatenates_S16x2104x1024_S16x2104x64_S16x2104x1088_d2) : (⟨S16x2104x1024, .f32⟩ : BufTy).Contents (Elt F) → (⟨S16x2104x64, .f32⟩ : BufTy).Contents (Elt F) → (⟨S16x2104x1088, .f32⟩ : BufTy).Contents (Elt F)),
    StableHlo.binary main_v36 main_arg3 main_v37 ((fun l r => Host.dotGeneral dot_S16x2104x1088_S1088x1088_S16x2104x1088_2_1_01_0_n_n none l r) : (⟨S16x2104x1088, .f32⟩ : BufTy).Contents (Elt F) → (⟨S1088x1088, .f32⟩ : BufTy).Contents (Elt F) → (⟨S16x2104x1088, .f32⟩ : BufTy).Contents (Elt F)),
    StableHlo.unary main_arg4 main_v38 (broadcastInDim S1x1x1088 ![2] bcast_S1088_S1x1x1088_2 : (⟨S1088, .f32⟩ : BufTy).Contents (Elt F) → (⟨S1x1x1088, .f32⟩ : BufTy).Contents (Elt F)),
    StableHlo.unary main_v38 main_v39 (broadcastInDim S16x2104x1088 ![0, 1, 2] bcast_S1x1x1088_S16x2104x1088_0_1_2 : (⟨S1x1x1088, .f32⟩ : BufTy).Contents (Elt F) → (⟨S16x2104x1088, .f32⟩ : BufTy).Contents (Elt F)),
    StableHlo.binary main_v37 main_v39 main_v40 (addf : (⟨S16x2104x1088, .f32⟩ : BufTy).Contents (Elt F) → (⟨S16x2104x1088, .f32⟩ : BufTy).Contents (Elt F) → (⟨S16x2104x1088, .f32⟩ : BufTy).Contents (Elt F)),
    TRef.nullary main_call0.cst (constant S_ .f32 0x00000000#32),
    TRef.unary main_call0.cst main_call0.v0 (broadcastInDim S16x2104x1088 ![] bcast_S_S16x2104x1088),
    TRef.binary (.of main_v40) main_call0.v0 main_call0.v1 maximumf,
    StableHlo.binary main_v41 main_arg5 main_v42 ((fun l r => Host.dotGeneral dot_S16x2104x1088_S1x1088_S16x2104x1_2_1_01_0_n_n none l r) : (⟨S16x2104x1088, .f32⟩ : BufTy).Contents (Elt F) → (⟨S1x1088, .f32⟩ : BufTy).Contents (Elt F) → (⟨S16x2104x1, .f32⟩ : BufTy).Contents (Elt F)),
    StableHlo.unary main_arg6 main_v43 (broadcastInDim S1x1x1 ![2] bcast_S1_S1x1x1_2 : (⟨S1, .f32⟩ : BufTy).Contents (Elt F) → (⟨S1x1x1, .f32⟩ : BufTy).Contents (Elt F)),
    StableHlo.unary main_v43 main_v44 (broadcastInDim S16x2104x1 ![0, 1, 2] bcast_S1x1x1_S16x2104x1_0_1_2 : (⟨S1x1x1, .f32⟩ : BufTy).Contents (Elt F) → (⟨S16x2104x1, .f32⟩ : BufTy).Contents (Elt F)),
    StableHlo.binary main_v42 main_v44 main_v45 (addf : (⟨S16x2104x1, .f32⟩ : BufTy).Contents (Elt F) → (⟨S16x2104x1, .f32⟩ : BufTy).Contents (Elt F) → (⟨S16x2104x1, .f32⟩ : BufTy).Contents (Elt F)),
    StableHlo.reshape main_v45 main_v46 rfl shapeCasts_S16x2104x1_S16x2104,
    StableHlo.nullary main_c_9 (constantI S_ 32 1#32),
    StableHlo.unary main_c_9 main_v47 (broadcastInDim S2104 ![] bcast_S_S2104 : (⟨S_, .i32⟩ : BufTy).Contents (Elt F) → (⟨S2104, .i32⟩ : BufTy).Contents (Elt F)),
    StableHlo.binary main_c main_v47 main_v48 (addi : (⟨S2104, .i32⟩ : BufTy).Contents (Elt F) → (⟨S2104, .i32⟩ : BufTy).Contents (Elt F) → (⟨S2104, .i32⟩ : BufTy).Contents (Elt F)),
    StableHlo.nullary main_c_10 (constantI S_ 32 1#32),
    StableHlo.unary main_c_10 main_v49 (broadcastInDim S2104 ![] bcast_S_S2104 : (⟨S_, .i32⟩ : BufTy).Contents (Elt F) → (⟨S2104, .i32⟩ : BufTy).Contents (Elt F)),
    StableHlo.binary main_c_0 main_v49 main_v50 (addi : (⟨S2104, .i32⟩ : BufTy).Contents (Elt F) → (⟨S2104, .i32⟩ : BufTy).Contents (Elt F) → (⟨S2104, .i32⟩ : BufTy).Contents (Elt F)),
    StableHlo.unary main_v48 main_v51 (broadcastInDim S2104x1 ![0] bcast_S2104_S2104x1_0 : (⟨S2104, .i32⟩ : BufTy).Contents (Elt F) → (⟨S2104x1, .i32⟩ : BufTy).Contents (Elt F)),
    StableHlo.unary main_v50 main_v52 (broadcastInDim S2104x1 ![0] bcast_S2104_S2104x1_0 : (⟨S2104, .i32⟩ : BufTy).Contents (Elt F) → (⟨S2104x1, .i32⟩ : BufTy).Contents (Elt F)),
    StableHlo.binary main_v51 main_v52 main_v53 ((fun a b => concatenate S2104x2 1 [⟨S2104x1, a⟩, ⟨S2104x1, b⟩] concatenates_S2104x1_S2104x1_S2104x2_d1) : (⟨S2104x1, .i32⟩ : BufTy).Contents (Elt F) → (⟨S2104x1, .i32⟩ : BufTy).Contents (Elt F) → (⟨S2104x2, .i32⟩ : BufTy).Contents (Elt F)) ]

-- 68 binds are re-associated: the rewriting recurses once per statement
set_option maxRecDepth 8192 in
set_option maxHeartbeats 4000000 in
/-- The program is that straight line: its two windows and the called function unfolded, sequencing re-associated,
    both sides are one chain of steps. -/
theorem main_eq (c : Dev nD) : main (F := F) c = seq ops := by
  simp only [main, main_part0, main_part1, fn_relu.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches buffers of the one core only. -/
theorem ops_sub : (ops : List (HloOp τ sig (Elt F))).Forall fun op => op.bufs ⊆ tcRefs τ sig :=
  ⟨nullary_bufs_sub .., nullary_bufs_sub .., nullary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    unary_bufs_sub .., unary_bufs_sub .., unary_bufs_sub .., binary_bufs_sub .., binary_bufs_sub .., unary_bufs_sub ..,
    unary_bufs_sub .., binary_bufs_sub .., unary_bufs_sub .., unary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., reshape_bufs_sub .., nullary_bufs_sub ..,
    unary_bufs_sub .., binary_bufs_sub .., nullary_bufs_sub .., unary_bufs_sub .., binary_bufs_sub .., unary_bufs_sub ..,
    unary_bufs_sub .., binary_bufs_sub ..⟩

end Cert.ReferenceIdeal.RefRun

end
-- ==== Proof.RefRunVal.lean ====
/-
  What the second program's buffers hold after its 68 operations, from any contents V of the core's buffers.

  The float result is the perceptron of the second program's feature rows; the integer result is the pair table
  (i + 1, j + 1); no operation writes an argument, so each argument keeps its contents. Each equation is the fold of
  the operations' results read at one buffer: an operation's own result buffer holds its function of its operands'
  contents, every other buffer what it held before.
-/
import proofs.«138655_j5403068858494_1_alg».proof.Proof.RefRunOps

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The buffers the 68 operations write, in order. -/
abbrev ops_W : List (Ref sig .tc) :=
  [main_c, main_c_0, main_c_1, main_c_2, main_v0, main_v1, main_c_3, main_v2, main_v3, main_v4,
   main_v5, main_v6, main_c_4, main_v7, main_v8, main_c_5, main_v9, main_v10, main_v11, main_v12,
   main_v13, main_v14, main_c_6, main_v15, main_v16, main_c_7, main_v17, main_v18, main_c_8, main_v19,
   main_v20, main_v21, main_v22, main_v23, main_v24, main_v25, main_v26, main_v27, main_v28, main_v29,
   main_v30, main_v31, main_v32, main_v33, main_v34, main_v35, main_v36, main_v37, main_v38, main_v39,
   main_v40, main_call0_cst, main_call0_v0, main_v41, main_v42, main_v43, main_v44, main_v45, main_v46, main_c_9,
   main_v47, main_v48, main_c_10, main_v49, main_v50, main_v51, main_v52, main_v53]

set_option maxRecDepth 8192 in
set_option maxHeartbeats 4000000 in
/-- Each operation writes its one result buffer, which is in the list. -/
theorem ops_writes : (ops : List (HloOp τ sig (Elt F))).Forall fun op =>
    op.writes ⊆ (ops_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

/-- A buffer the operations do not write keeps its contents. -/
theorem keep (V : Valuation τ sig (Elt F)) (r : Ref sig .tc) (h : r ∉ ops_W) :
    after ops V (Proc.devRef .tc r) = V (Proc.devRef .tc r) :=
  after_of_writes_sub ops V ops_writes h

theorem arg0_eq (V : Valuation τ sig (Elt F)) : after ops V (main_arg0 : DevRef τ sig) = V (main_arg0 : DevRef τ sig) :=
  keep V main_arg0 (by decide)
theorem arg1_eq (V : Valuation τ sig (Elt F)) : after ops V (main_arg1 : DevRef τ sig) = V (main_arg1 : DevRef τ sig) :=
  keep V main_arg1 (by decide)
theorem arg2_eq (V : Valuation τ sig (Elt F)) : after ops V (main_arg2 : DevRef τ sig) = V (main_arg2 : DevRef τ sig) :=
  keep V main_arg2 (by decide)
theorem arg3_eq (V : Valuation τ sig (Elt F)) : after ops V (main_arg3 : DevRef τ sig) = V (main_arg3 : DevRef τ sig) :=
  keep V main_arg3 (by decide)
theorem arg4_eq (V : Valuation τ sig (Elt F)) : after ops V (main_arg4 : DevRef τ sig) = V (main_arg4 : DevRef τ sig) :=
  keep V main_arg4 (by decide)
theorem arg5_eq (V : Valuation τ sig (Elt F)) : after ops V (main_arg5 : DevRef τ sig) = V (main_arg5 : DevRef τ sig) :=
  keep V main_arg5 (by decide)
theorem arg6_eq (V : Valuation τ sig (Elt F)) : after ops V (main_arg6 : DevRef τ sig) = V (main_arg6 : DevRef τ sig) :=
  keep V main_arg6 (by decide)

/-- A two-operand concatenation is determined by its two operands (the side condition reads their shapes only). -/
theorem concatenate_pair_congr {α : Type} {t s₁ s₂ : Shape} {a : Fin t.rank} {x₁ x₁' : s₁.Idx → α} {x₂ x₂' : s₂.Idx → α}
    (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

attribute [local congr] concatenate_pair_congr

set_option maxRecDepth 8192 in
set_option maxHeartbeats 4000000 in
/-- The integer result: the columns i + 1 and j + 1 side by side. -/
theorem v53_eq (V : Valuation τ sig (Elt F)) :
    after ops V (main_v53 : DevRef τ sig) = Cert.Stages.pairs Cert.Stages.rEmo Cert.Stages.rCau := by
  after_results_simp
  rfl

set_option maxRecDepth 8192 in
set_option maxHeartbeats 2000000 in
/-- The float result: the perceptron of the feature rows [gathered rows i ; gathered rows j ; smoothed embedding].
    Read off the fold, the term is the stages composed in program order; the stages' names unfold to it (the
    three tables stay folded under their names on both sides). -/
theorem v46_eq (V : Valuation τ sig (Elt F)) :
    after ops V (main_v46 : DevRef τ sig)
      = Cert.Stages.mlpR (Cert.Stages.couplesR (V (main_arg0 : DevRef τ sig)) (V (main_arg1 : DevRef τ sig)) (V (main_arg2 : DevRef τ sig)))
          (V (main_arg3 : DevRef τ sig)) (V (main_arg4 : DevRef τ sig)) (V (main_arg5 : DevRef τ sig)) (V (main_arg6 : DevRef τ sig)) := by
  after_results_simp
  unfold Cert.Stages.mlpR Cert.Stages.couplesR Cert.Stages.couples Cert.Stages.gatherRows Cert.Stages.gatherEmb
    Cert.Stages.smooth Cert.Stages.relDiff Cert.Stages.rRel8 Cert.Stages.wrapCol
  rfl

end Cert.ReferenceIdeal.RefRun

end
-- ==== Proof.RefRun.lean ====
/-
  The second program's run.

  From any memory with zero counters, every weakly fair execution of the second program terminates, and on every
  core the float result buffer holds the perceptron of the second program's feature rows of the seven arguments'
  launch contents, the integer result buffer holds the pair table (i + 1, j + 1), and the seven arguments are
  unchanged. The program is a straight line of operations on tensor values, so its run is the fold of the
  operations' results over the launch contents; the fold is read at each of the nine buffers.
-/
import proofs.«138655_j5403068858494_1_alg».proof.Proof.RefRunVal

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

set_option maxRecDepth 8192 in
set_option maxHeartbeats 4000000 in
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v46)
          = Cert.Stages.mlpR (Cert.Stages.couplesR (m ((c.tc : Thread nD τ).loc main_arg0)) (m ((c.tc : Thread nD τ).loc main_arg1)) (m ((c.tc : Thread nD τ).loc main_arg2)))
              (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v53) = Cert.Stages.pairs Cert.Stages.rEmo Cert.Stages.rCau
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v46).trans (v46_eq (launchContents m c)),
      (h c main_v53).trans (v53_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c))⟩)
    (run_seq scopedRefs_eq scopedSems_eq defs main (fun _ => ops) main_eq (fun _ => ops_sub) m ρ)

end Cert.ReferenceIdeal.RefRun

end
-- ==== Proof.Tables.lean ====
/-
  The static pair tables of the two programs, entry by entry.

  Both programs carry, for each of the 2104 windowed pairs (i, j) with |j - i| <= 8, the row i, the row j and the relative
  position rel = j - i. The first program's tables hold i, j, rel + 8 (an index 0..16 into the position embedding) and rel
  as a single-precision pattern; the second program's hold i, j and rel as a signed word. Each fact below is a statement
  about all 2104 entries of literal tables, decided by evaluating every entry.
-/
import proofs.«138655_j5403068858494_1_alg».proof.KernelIdeal
import proofs.«138655_j5403068858494_1_alg».proof.ReferenceIdeal
import Idealize.ShloMosaic.Lib.Decide

set_option Elab.async false

namespace Cert.Tables

open Idealize.ShloMosaic

/-- The single-precision pattern of a relative position -8..8 given as a signed word (0 elsewhere). -/
def relBits (w : BitVec 32) : BitVec 32 :=
  if w = 0#32 then 0x00000000#32
  else if w = 1#32 then 0x3F800000#32
  else if w = 2#32 then 0x40000000#32
  else if w = 3#32 then 0x40400000#32
  else if w = 4#32 then 0x40800000#32
  else if w = 5#32 then 0x40A00000#32
  else if w = 6#32 then 0x40C00000#32
  else if w = 7#32 then 0x40E00000#32
  else if w = 8#32 then 0x41000000#32
  else if w = 0xFFFFFFFF#32 then 0xBF800000#32
  else if w = 0xFFFFFFFE#32 then 0xC0000000#32
  else if w = 0xFFFFFFFD#32 then 0xC0400000#32
  else if w = 0xFFFFFFFC#32 then 0xC0800000#32
  else if w = 0xFFFFFFFB#32 then 0xC0A00000#32
  else if w = 0xFFFFFFFA#32 then 0xC0C00000#32
  else if w = 0xFFFFFFF9#32 then 0xC0E00000#32
  else if w = 0xFFFFFFF8#32 then 0xC1000000#32
  else 0#32

/-- The seventeen relative positions -8..8 as signed words. -/
def relWords : List (BitVec 32) :=
  [0#32, 1#32, 2#32, 3#32, 4#32, 5#32, 6#32, 7#32, 8#32,
   0xFFFFFFFF#32, 0xFFFFFFFE#32, 0xFFFFFFFD#32, 0xFFFFFFFC#32, 0xFFFFFFFB#32, 0xFFFFFFFA#32, 0xFFFFFFF9#32, 0xFFFFFFF8#32]

/-- The test a row lookup makes of an index word `w` over an axis of extent `n` (last row `hi`): a negative index is
    wrapped by the extent, and the wrapped index must lie in [0, hi]. -/
def inR (n hi w : BitVec 32) : BitVec 1 :=
  IntOp.andi
    (IntOp.cmpi .sge (Scalar.select (IntOp.cmpi .slt w 0#32) (IntOp.addi w n) w) 0#32)
    (IntOp.cmpi .sle (Scalar.select (IntOp.cmpi .slt w 0#32) (IntOp.addi w n) w) hi)

/-- The two programs' tables of the row i agree. -/
theorem lit0_eq : ∀ i : Fin 2104, Cert.KernelIdeal.lit0 i = Cert.ReferenceIdeal.lit0 i := by decide +kernel

/-- The two programs' tables of the row j agree. -/
theorem lit1_eq : ∀ i : Fin 2104, Cert.KernelIdeal.lit1 i = Cert.ReferenceIdeal.lit1 i := by decide +kernel

/-- The first program's embedding index is the second's relative position plus 8. -/
theorem lit2_eq : ∀ i : Fin 2104, Cert.KernelIdeal.lit2 i = Cert.ReferenceIdeal.lit2 i + 8#32 := by decide +kernel

/-- The first program's float table holds the patterns of the second's relative positions. -/
theorem lit3_eq : ∀ i : Fin 2104, Cert.KernelIdeal.lit3 i = relBits (Cert.ReferenceIdeal.lit2 i) := by decide +kernel

/-- Every relative position is one of -8..8. -/
theorem lit2_mem : ∀ i : Fin 2104, Cert.ReferenceIdeal.lit2 i ∈ relWords := by decide +kernel

/-- Every row i is a row of the 128. -/
theorem lit0_inR : ∀ i : Fin 2104, inR 128#32 127#32 (Cert.KernelIdeal.lit0 i) = 1#1 := by decide +kernel

/-- Every row j is a row of the 128. -/
theorem lit1_inR : ∀ i : Fin 2104, inR 128#32 127#32 (Cert.KernelIdeal.lit1 i) = 1#1 := by decide +kernel

/-- Every embedding index is a row of the 17. -/
theorem lit2_inR : ∀ i : Fin 2104, inR 17#32 16#32 (Cert.KernelIdeal.lit2 i) = 1#1 := by decide +kernel

end Cert.Tables
-- ==== Proof.LibAllTrue.lean ====
/-
  A reduction by `and` over words that are all 1.

  A host reduce of one-bit words by `and` folds, at each result index, the operand words that reduce into it, starting
  from the initial value's element. If that element is 1 and every operand word is 1, every step is `1 and 1 = 1`, so
  the result is 1 at every index, whatever the shapes and the reduced axes.
-/
import Idealize.ShloMosaic.PureOps.Reduce

namespace Cert.LibAllTrue

open Idealize.ShloMosaic

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A `stablehlo.reduce` by `and` from an initial value that is 1, over an operand that is 1 everywhere, is 1 at every
    result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x hx _

end Cert.LibAllTrue
-- ==== Proof.Lookups.lean ====
/-
  The row lookups of the two programs build the same feature rows.

  The first program looks rows up with a test: an index outside the axis yields a sentinel row. For the static pair
  tables every index is inside its axis, so the test is true at every pair and the lookup is the plain one. The tables
  themselves agree entry by entry (rows i and j), up to the shift by 8 the second program computes (embedding index),
  and up to reading a small integer as a float (relative position).
-/
import proofs.«138655_j5403068858494_1_alg».proof.Proof.Stages
import proofs.«138655_j5403068858494_1_alg».proof.Proof.Tables
import proofs.«138655_j5403068858494_1_alg».proof.Proof.LibAllTrue

noncomputable section

namespace Cert.Lookups

open Idealize.ShloMosaic Cert.KernelIdeal Cert.KernelIdeal.Facts₀ Cert.Stages Cert.Tables

/-! ## The range test is true at every pair -/

/-- If every index word passes the test, the per-pair conjunction is 1 at every pair. -/
theorem inRange_all (n hi : BitVec 32) (idx : IVec S2104 32) (h : ∀ p, inR n hi (idx p) = 1#1) (j : S2104.Idx) :
    inRange hi (wrapCol n idx) j = 1#1 := by
  unfold inRange
  refine Cert.LibAllTrue.reduce_andi_of_all _ _ _ _ (fun _ => rfl) (fun i => ?_) j
  exact h _

/-- A lookup of utterance rows with the test, over indices that all pass it, is the plain lookup. -/
theorem takeRows_of_all (x : FVec Ideal S16x128x512 .f32) (idx : IVec S2104 32) (h : ∀ p, inR 128#32 127#32 (idx p) = 1#1) :
    takeRows x idx = gatherRows x idx := by
  funext j
  unfold takeRows gatherRows
  show Scalar.select (inRange 127#32 (wrapCol 128#32 idx) _) _ _ = _
  rw [inRange_all _ _ _ h]
  exact if_pos rfl

/-- A lookup of embedding rows with the test, over indices that all pass it, is the plain lookup. -/
theorem takeEmb_of_all (x : FVec Ideal S17x64 .f32) (idx : IVec S2104 32) (h : ∀ p, inR 17#32 16#32 (idx p) = 1#1) :
    takeEmb x idx = gatherEmb x idx := by
  funext j
  unfold takeEmb gatherEmb
  show Scalar.select (inRange 16#32 (wrapCol 17#32 idx) _) _ _ = _
  rw [inRange_all _ _ _ h]
  exact if_pos rfl

/-! ## The tables as vectors -/

/-- The two programs' rows i agree as vectors. -/
theorem kEmo_eq : kEmo = rEmo := funext fun p => lit0_eq (S2104.rowMajor p)

/-- The two programs' rows j agree as vectors. -/
theorem kCau_eq : kCau = rCau := funext fun p => lit1_eq (S2104.rowMajor p)

/-- The first program's embedding indices are the second program's computed ones. -/
theorem kRel8_eq : kRel8 = rRel8 := funext fun p => lit2_eq (S2104.rowMajor p)

/-- The first program's lookup of the rows i is the second program's. -/
theorem takeRows_kEmo (x : FVec Ideal S16x128x512 .f32) : takeRows x kEmo = gatherRows x rEmo := by
  rw [takeRows_of_all x kEmo fun p => lit0_inR (S2104.rowMajor p), kEmo_eq]

/-- The first program's lookup of the rows j is the second program's. -/
theorem takeRows_kCau (x : FVec Ideal S16x128x512 .f32) : takeRows x kCau = gatherRows x rCau := by
  rw [takeRows_of_all x kCau fun p => lit1_inR (S2104.rowMajor p), kCau_eq]

/-- The first program's lookup of the embedding rows is the second program's. -/
theorem takeEmb_kRel8 (x : FVec Ideal S17x64 .f32) : takeEmb x kRel8 = gatherEmb x rRel8 := by
  rw [takeEmb_of_all x kRel8 fun p => lit2_inR (S2104.rowMajor p), kRel8_eq]

/-! ## The relative position as a float -/

/-- The pattern of 0.0 denotes 0. -/
theorem ofBits_p0 : Ideal.ofBits .f32 0x00000000#32 = ((0 : ℝ) : EReal) := by
  simp [Ideal.ofBits, Ideal.ieee, -EReal.coe_mul]

/-- The pattern of 1.0 denotes 1. -/
theorem ofBits_p1 : Ideal.ofBits .f32 0x3F800000#32 = ((1 : ℝ) : EReal) := by
  simp [Ideal.ofBits, Ideal.ieee, -EReal.coe_mul]; norm_num

/-- The pattern of 2.0 denotes 2. -/
theorem ofBits_p2 : Ideal.ofBits .f32 0x40000000#32 = ((2 : ℝ) : EReal) := by
  simp [Ideal.ofBits, Ideal.ieee, -EReal.coe_mul]; norm_num

/-- The pattern of 3.0 denotes 3. -/
theorem ofBits_p3 : Ideal.ofBits .f32 0x40400000#32 = ((3 : ℝ) : EReal) := by
  simp [Ideal.ofBits, Ideal.ieee, -EReal.coe_mul]; norm_num

/-- The pattern of 4.0 denotes 4. -/
theorem ofBits_p4 : Ideal.ofBits .f32 0x40800000#32 = ((4 : ℝ) : EReal) := by
  simp [Ideal.ofBits, Ideal.ieee, -EReal.coe_mul]; norm_num

/-- The pattern of 5.0 denotes 5. -/
theorem ofBits_p5 : Ideal.ofBits .f32 0x40A00000#32 = ((5 : ℝ) : EReal) := by
  simp [Ideal.ofBits, Ideal.ieee, -EReal.coe_mul]; norm_num

/-- The pattern of 6.0 denotes 6. -/
theorem ofBits_p6 : Ideal.ofBits .f32 0x40C00000#32 = ((6 : ℝ) : EReal) := by
  simp [Ideal.ofBits, Ideal.ieee, -EReal.coe_mul]; norm_num

/-- The pattern of 7.0 denotes 7. -/
theorem ofBits_p7 : Ideal.ofBits .f32 0x40E00000#32 = ((7 : ℝ) : EReal) := by
  simp [Ideal.ofBits, Ideal.ieee, -EReal.coe_mul]; norm_num

/-- The pattern of 8.0 denotes 8. -/
theorem ofBits_p8 : Ideal.ofBits .f32 0x41000000#32 = ((8 : ℝ) : EReal) := by
  simp [Ideal.ofBits, Ideal.ieee, -EReal.coe_mul]; norm_num

/-- The pattern of -1.0 denotes -1. -/
theorem ofBits_m1 : Ideal.ofBits .f32 0xBF800000#32 = ((-1 : ℝ) : EReal) := by
  simp [Ideal.ofBits, Ideal.ieee, -EReal.coe_mul]; norm_num

/-- The pattern of -2.0 denotes -2. -/
theorem ofBits_m2 : Ideal.ofBits .f32 0xC0000000#32 = ((-2 : ℝ) : EReal) := by
  simp [Ideal.ofBits, Ideal.ieee, -EReal.coe_mul]; norm_num

/-- The pattern of -3.0 denotes -3. -/
theorem ofBits_m3 : Ideal.ofBits .f32 0xC0400000#32 = ((-3 : ℝ) : EReal) := by
  simp [Ideal.ofBits, Ideal.ieee, -EReal.coe_mul]; norm_num

/-- The pattern of -4.0 denotes -4. -/
theorem ofBits_m4 : Ideal.ofBits .f32 0xC0800000#32 = ((-4 : ℝ) : EReal) := by
  simp [Ideal.ofBits, Ideal.ieee, -EReal.coe_mul]; norm_num

/-- The pattern of -5.0 denotes -5. -/
theorem ofBits_m5 : Ideal.ofBits .f32 0xC0A00000#32 = ((-5 : ℝ) : EReal) := by
  simp [Ideal.ofBits, Ideal.ieee, -EReal.coe_mul]; norm_num

/-- The pattern of -6.0 denotes -6. -/
theorem ofBits_m6 : Ideal.ofBits .f32 0xC0C00000#32 = ((-6 : ℝ) : EReal) := by
  simp [Ideal.ofBits, Ideal.ieee, -EReal.coe_mul]; norm_num

/-- The pattern of -7.0 denotes -7. -/
theorem ofBits_m7 : Ideal.ofBits .f32 0xC0E00000#32 = ((-7 : ℝ) : EReal) := by
  simp [Ideal.ofBits, Ideal.ieee, -EReal.coe_mul]; norm_num

/-- The pattern of -8.0 denotes -8. -/
theorem ofBits_m8 : Ideal.ofBits .f32 0xC1000000#32 = ((-8 : ℝ) : EReal) := by
  simp [Ideal.ofBits, Ideal.ieee, -EReal.coe_mul]; norm_num

/-- For each relative position -8..8, the pattern the first program's table holds denotes the integer the second
    program converts: the exact value of the signed word. -/
theorem ofBits_relBits : ∀ w ∈ relWords, Ideal.ofBits .f32 (relBits w) = ((w.toInt : ℝ) : EReal) := by
  intro w hw
  simp only [relWords, List.mem_cons, List.not_mem_nil, or_false] at hw
  rcases hw with rfl | rfl | rfl | rfl | rfl | rfl | rfl | rfl | rfl | rfl | rfl | rfl | rfl | rfl | rfl | rfl | rfl
  · rw [show relBits 0#32 = 0x00000000#32 from by decide, show (0#32 : BitVec 32).toInt = 0 from by decide, ofBits_p0]
    norm_num
  · rw [show relBits 1#32 = 0x3F800000#32 from by decide, show (1#32 : BitVec 32).toInt = 1 from by decide, ofBits_p1]
    norm_num
  · rw [show relBits 2#32 = 0x40000000#32 from by decide, show (2#32 : BitVec 32).toInt = 2 from by decide, ofBits_p2]
    norm_num
  · rw [show relBits 3#32 = 0x40400000#32 from by decide, show (3#32 : BitVec 32).toInt = 3 from by decide, ofBits_p3]
    norm_num
  · rw [show relBits 4#32 = 0x40800000#32 from by decide, show (4#32 : BitVec 32).toInt = 4 from by decide, ofBits_p4]
    norm_num
  · rw [show relBits 5#32 = 0x40A00000#32 from by decide, show (5#32 : BitVec 32).toInt = 5 from by decide, ofBits_p5]
    norm_num
  · rw [show relBits 6#32 = 0x40C00000#32 from by decide, show (6#32 : BitVec 32).toInt = 6 from by decide, ofBits_p6]
    norm_num
  · rw [show relBits 7#32 = 0x40E00000#32 from by decide, show (7#32 : BitVec 32).toInt = 7 from by decide, ofBits_p7]
    norm_num
  · rw [show relBits 8#32 = 0x41000000#32 from by decide, show (8#32 : BitVec 32).toInt = 8 from by decide, ofBits_p8]
    norm_num
  · rw [show relBits 0xFFFFFFFF#32 = 0xBF800000#32 from by decide, show (0xFFFFFFFF#32 : BitVec 32).toInt = -1 from by decide, ofBits_m1]
    norm_num
  · rw [show relBits 0xFFFFFFFE#32 = 0xC0000000#32 from by decide, show (0xFFFFFFFE#32 : BitVec 32).toInt = -2 from by decide, ofBits_m2]
    norm_num
  · rw [show relBits 0xFFFFFFFD#32 = 0xC0400000#32 from by decide, show (0xFFFFFFFD#32 : BitVec 32).toInt = -3 from by decide, ofBits_m3]
    norm_num
  · rw [show relBits 0xFFFFFFFC#32 = 0xC0800000#32 from by decide, show (0xFFFFFFFC#32 : BitVec 32).toInt = -4 from by decide, ofBits_m4]
    norm_num
  · rw [show relBits 0xFFFFFFFB#32 = 0xC0A00000#32 from by decide, show (0xFFFFFFFB#32 : BitVec 32).toInt = -5 from by decide, ofBits_m5]
    norm_num
  · rw [show relBits 0xFFFFFFFA#32 = 0xC0C00000#32 from by decide, show (0xFFFFFFFA#32 : BitVec 32).toInt = -6 from by decide, ofBits_m6]
    norm_num
  · rw [show relBits 0xFFFFFFF9#32 = 0xC0E00000#32 from by decide, show (0xFFFFFFF9#32 : BitVec 32).toInt = -7 from by decide, ofBits_m7]
    norm_num
  · rw [show relBits 0xFFFFFFF8#32 = 0xC1000000#32 from by decide, show (0xFFFFFFF8#32 : BitVec 32).toInt = -8 from by decide, ofBits_m8]
    norm_num

/-- The first program's float table is the second program's relative positions converted to floats. -/
theorem kRelF_eq : (kRelF (F := Ideal)) = sitofp .f32 rRel := by
  funext p
  show Ideal.ofBits .f32 (Cert.KernelIdeal.lit3 (S2104.rowMajor p))
    = (((Cert.ReferenceIdeal.lit2 (S2104.rowMajor p)).toInt : ℝ) : EReal)
  refine (congrArg (Ideal.ofBits .f32) (lit3_eq (S2104.rowMajor p))).trans ?_
  exact ofBits_relBits _ (lit2_mem (S2104.rowMajor p))

/-! ## The feature rows and the integer result -/

/-- The two programs build the same feature rows. -/
theorem couples_eq (a0 a1 : FVec Ideal S16x128x512 .f32) (a2 : FVec Ideal S17x64 .f32) :
    couplesK a0 a1 a2 = couplesR a0 a1 a2 := by
  unfold couplesK couplesR
  rw [takeRows_kEmo, takeRows_kCau, takeEmb_kRel8, kRelF_eq]

/-- The two programs build the same integer result. -/
theorem pairs_eq : pairs kEmo kCau = pairs rEmo rCau := by
  rw [kEmo_eq, kCau_eq]

end Cert.Lookups

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.MlpRead.lean ====
/-
  The two-layer perceptron read at one entry, in both programs.

  For one feature row x (1088 features), weights w1 (hidden unit g, feature f), biases b1, output weights w2 and bias b2,
  the perceptron's value is Σ_g max(Σ_f x f · w1 g f + b1 g, 0) · w2 g + b2. The first program computes it for a block of
  1024 rows at a time by two matrix products into zero accumulators (the weights transposed beforehand, the second
  weight a column); the second program computes it for all [16, 2104] rows at once by two contractions over the feature
  axis. Each is read here at one row, on the extended reals, as that sum.
-/
import proofs.«138655_j5403068858494_1_alg».proof.Proof.Gen.KernelIdeal.Skeleton
import proofs.«138655_j5403068858494_1_alg».proof.Proof.Stages
import proofs.«138655_j5403068858494_1_alg».proof.Proof.LibHostRead
import Idealize.ShloMosaic.Lib.ValueIdx
import Idealize.ShloMosaic.Lib.ValueLayout
import Idealize.ShloMosaic.Lib.Pipeline.Value
import Idealize.ShloMosaic.PureOps.Ideal.Laws

noncomputable section

namespace Cert.MlpRead

open Idealize.ShloMosaic Idealize.ShloMosaic.ValueIdx

/-! ## The first program's row-block value at one row -/

section Kernel
open Cert.KernelIdeal Cert.KernelIdeal.Facts₀

/-- The zero word of the 32-bit format is the extended real 0. -/
theorem zero_f32 : (FloatOps.ofBits (F := Ideal) .f32 0x00000000#32 : Ideal .f32) = (0 : EReal) := Ideal.ofBits_zero_f32

/-- The first product's dimension numbers: rows × features times features × hidden units. -/
theorem plain1 : Cert.LibHostRead.PlainDot dot_S1024x1088_S1088x1088_S1024x1088_1_0_0_1_n_n where
  hr := rfl
  hs := rfl
  hl0 := fun i q => by simp [DotDims.lhsIdx, dot_S1024x1088_S1088x1088_S1024x1088_1_0_0_1_n_n]; rfl
  hl1 := fun i q => by simp [DotDims.lhsIdx, dot_S1024x1088_S1088x1088_S1024x1088_1_0_0_1_n_n]; rfl
  hr0 := fun i q => by simp [DotDims.rhsIdx, dot_S1024x1088_S1088x1088_S1024x1088_1_0_0_1_n_n]; rfl
  hr1 := fun i q => by simp [DotDims.rhsIdx, dot_S1024x1088_S1088x1088_S1024x1088_1_0_0_1_n_n]; rfl

/-- The second product's dimension numbers: rows × hidden units times hidden units × one column. -/
theorem plain2 : Cert.LibHostRead.PlainDot dot_S1024x1088_S1088x1_S1024x1_1_0_0_1_n_n where
  hr := rfl
  hs := rfl
  hl0 := fun i q => by simp [DotDims.lhsIdx, dot_S1024x1088_S1088x1_S1024x1_1_0_0_1_n_n]; rfl
  hl1 := fun i q => by simp [DotDims.lhsIdx, dot_S1024x1088_S1088x1_S1024x1_1_0_0_1_n_n]; rfl
  hr0 := fun i q => by simp [DotDims.rhsIdx, dot_S1024x1088_S1088x1_S1024x1_1_0_0_1_n_n]; rfl
  hr1 := fun i q => by
    have h : (i 1).val < 1 := (i 1).isLt
    simp [DotDims.rhsIdx, dot_S1024x1088_S1088x1_S1024x1_1_0_0_1_n_n]
    omega

/-- The hidden layer at (row r, unit g): max(Σ_f x[r, f] · w[f, g] + b[g], 0). -/
theorem hidden_apply (x0 : FVec Ideal S1024x1088 .bf16) (x1 : FVec Ideal S1088x1088 .bf16) (x2 : FVec Ideal S1088 .f32)
    (r : Fin 1024) (g : Fin 1088) :
    maximumf
        (addf (matmul dot_S1024x1088_S1088x1088_S1024x1088_1_0_0_1_n_n none x0 x1 (constant S1024x1088 .f32 0x00000000#32))
          (broadcastTo S1024x1088 (shapeCast S1x1088 x2 shapeCasts_S1088_S1x1088) broadcasts_S1x1088_S1024x1088))
        (broadcast S1024x1088 (FloatOps.ofBits (F := Ideal) .f32 0x00000000#32)) (ix2 r g)
      = max ((∑ f : Fin 1088, x0 (ix2 r f) * x1 (ix2 f g)) + x2 (ix1 g)) 0 := by
  rw [maximumf_apply, addf_apply, broadcast_apply, zero_f32]
  refine congrArg (fun t => max t (0 : EReal)) ?_
  refine congrArg₂ (· + ·) ?_ ?_
  · exact Cert.LibHostRead.matmul_plain_zero_apply (φ₁ := .bf16) (φ₂ := .bf16) _ plain1 x0 x1 r g
  · exact (broadcastTo_1b_ab_apply _ _ r g).trans (shapeCast_a_1a_apply x2 _ 0 g)

/-- A column `[a, 1]` cast to a vector `[a]` reads, at `p`, the column at `(p, 0)`. -/
theorem shapeCast_a1_a_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- The one entry of a one-entry vector, extracted at position 0. -/
theorem extractAt_S1 {α : Type} (x : S1.Idx → α) (h : ∀ a, (![0] : Fin 1 → ℕ) a < S1.size a) :
    extractAt ![0] x h = x (ix1 (0 : Fin 1)) :=
  congrArg x (funext fun a => match a with | ⟨0, _⟩ => rfl)

/-- The stored value of the row-block computation at row r is the perceptron of feature row r. -/
theorem pay_apply (x0 : Vec Ideal S1024x1088 .bf16) (x1 : Vec Ideal S1088x1088 .bf16) (x2 : Vec Ideal S1088 .f32)
    (x3 : Vec Ideal S1088x1 .bf16) (x4 : Vec Ideal S1 .f32) (r : Fin 1024) :
    Cert.KernelIdeal.Gen.k0_pay1 (F := Ideal) x0 x1 x2 x3 x4 (ix1 r)
      = Cert.Stages.mlpAt (fun f => x0 (ix2 r f)) (fun g f => x1 (ix2 f g)) (fun g => x2 (ix1 g))
          (fun g => x3 (ix2 g (0 : Fin 1))) (x4 (ix1 (0 : Fin 1))) := by
  unfold Cert.KernelIdeal.Gen.k0_pay1 Cert.Stages.mlpAt
  dsimp only
  rw [shapeCast_self, shapeCast_self, shapeCast_self, addf_apply, broadcast_apply]
  refine congrArg₂ (· + ·) ?_ (extractAt_S1 x4 _)
  refine (shapeCast_a1_a_apply _ _ r).trans ?_
  refine (Cert.LibHostRead.matmul_plain_zero_apply (φ₁ := .bf16) (φ₂ := .bf16) _ plain2 _ x3 r 0).trans ?_
  refine Finset.sum_congr rfl fun g _ => ?_
  refine congrArg (· * x3 (ix2 g (0 : Fin 1))) ?_
  exact (truncf_apply (φ := .f32) (ψ := .bf16) _ bitsLt_bf16_f32 (ix2 r g)).trans (hidden_apply x0 x1 x2 r g)

end Kernel

/-! ## The second program's perceptron at one entry -/

section Reference
open Cert.ReferenceIdeal Cert.ReferenceIdeal.Facts₀

/-- What makes a dot a product of a stack of rows `[B, N, K]` with a matrix `[G, K]` over the last axis of each: one
    contracted axis of extent `K`; the left operand is read at (the result's first two coordinates, contracted
    coordinate), the right at (the result's last coordinate, contracted coordinate). -/
structure RowDot {B N K G : ℕ} (d : DotDims ⟨3, ![B, N, K]⟩ ⟨2, ![G, K]⟩ ⟨3, ![B, N, G]⟩) : Prop where
  hr : d.contr.rank = 1
  hs : d.contr.size ⟨0, by omega⟩ = K
  hl0 : ∀ (i : (⟨3, ![B, N, G]⟩ : Shape).Idx) (q : d.contr.Idx), (d.lhsIdx i q 0).val = (i 0).val
  hl1 : ∀ (i : (⟨3, ![B, N, G]⟩ : Shape).Idx) (q : d.contr.Idx), (d.lhsIdx i q 1).val = (i 1).val
  hl2 : ∀ (i : (⟨3, ![B, N, G]⟩ : Shape).Idx) (q : d.contr.Idx), (d.lhsIdx i q 2).val = (q ⟨0, by omega⟩).val
  hr0 : ∀ (i : (⟨3, ![B, N, G]⟩ : Shape).Idx) (q : d.contr.Idx), (d.rhsIdx i q 0).val = (i 2).val
  hr1 : ∀ (i : (⟨3, ![B, N, G]⟩ : Shape).Idx) (q : d.contr.Idx), (d.rhsIdx i q 1).val = (q ⟨0, by omega⟩).val

/-- The sum over such a dot's contraction index is the sum over `Fin K` of the products along row `(b, n)` of the left
    operand and row `g` of the right. -/
theorem RowDot.sum_eq {B N K G : ℕ} {d : DotDims ⟨3, ![B, N, K]⟩ ⟨2, ![G, K]⟩ ⟨3, ![B, N, G]⟩} (hd : RowDot d)
    (lhs : (⟨3, ![B, N, K]⟩ : Shape).Idx → EReal) (rhs : (⟨2, ![G, K]⟩ : Shape).Idx → EReal) (b : Fin B) (n : Fin N) (g : Fin G) :
    ∑ k : d.contr.Idx, lhs (d.lhsIdx (ix3 b n g) k) * rhs (d.rhsIdx (ix3 b n g) k)
      = ∑ f : Fin K, lhs (ix3 b n f) * rhs (ix2 g f) := by
  rw [← Equiv.sum_comp (contrEquiv1 d K hd.hr hd.hs).symm]
  refine Finset.sum_congr rfl fun k _ => ?_
  have hk := contrEquiv1_symm_val d K hd.hr hd.hs k
  have el : d.lhsIdx (ix3 b n g) ((contrEquiv1 d K hd.hr hd.hs).symm k) = ix3 b n k := funext fun a => Fin.ext (by
    match a with
    | ⟨0, _⟩ => exact hd.hl0 _ _
    | ⟨1, _⟩ => exact hd.hl1 _ _
    | ⟨2, _⟩ => exact (hd.hl2 _ _).trans hk)
  have er : d.rhsIdx (ix3 b n g) ((contrEquiv1 d K hd.hr hd.hs).symm k) = ix2 g k := funext fun a => Fin.ext (by
    match a with
    | ⟨0, _⟩ => exact hd.hr0 _ _
    | ⟨1, _⟩ => exact (hd.hr1 _ _).trans hk)
  rw [el, er]

/-- The host's contraction of a stack of rows with a matrix over the last axis of each, at `(b, n, g)`. -/
theorem dotGeneral_row_apply {B N K G : ℕ} {φ₁ φ₂ : FTy} (d : DotDims ⟨3, ![B, N, K]⟩ ⟨2, ![G, K]⟩ ⟨3, ![B, N, G]⟩)
    (hd : RowDot d) (lhs : FVec Ideal ⟨3, ![B, N, K]⟩ φ₁) (rhs : FVec Ideal ⟨2, ![G, K]⟩ φ₂) (b : Fin B) (n : Fin N) (g : Fin G) :
    FloatOps.dotGeneral d none .single lhs rhs (ix3 b n g) = ∑ f : Fin K, lhs (ix3 b n f) * rhs (ix2 g f) := by
  rw [Ideal.dotGeneral_apply]
  exact hd.sum_eq lhs rhs b n g

/-- The first contraction's dimension numbers: feature rows against the rows of W1. -/
theorem row1 : RowDot dot_S16x2104x1088_S1088x1088_S16x2104x1088_2_1_01_0_n_n where
  hr := rfl
  hs := rfl
  hl0 := fun i q => by simp [DotDims.lhsIdx, dot_S16x2104x1088_S1088x1088_S16x2104x1088_2_1_01_0_n_n]; rfl
  hl1 := fun i q => by simp [DotDims.lhsIdx, dot_S16x2104x1088_S1088x1088_S16x2104x1088_2_1_01_0_n_n]; rfl
  hl2 := fun i q => by simp [DotDims.lhsIdx, dot_S16x2104x1088_S1088x1088_S16x2104x1088_2_1_01_0_n_n]; rfl
  hr0 := fun i q => by simp [DotDims.rhsIdx, dot_S16x2104x1088_S1088x1088_S16x2104x1088_2_1_01_0_n_n]; rfl
  hr1 := fun i q => by simp [DotDims.rhsIdx, dot_S16x2104x1088_S1088x1088_S16x2104x1088_2_1_01_0_n_n]; rfl

/-- The second contraction's dimension numbers: hidden rows against the one row of W2. -/
theorem row2 : RowDot dot_S16x2104x1088_S1x1088_S16x2104x1_2_1_01_0_n_n where
  hr := rfl
  hs := rfl
  hl0 := fun i q => by simp [DotDims.lhsIdx, dot_S16x2104x1088_S1x1088_S16x2104x1_2_1_01_0_n_n]; rfl
  hl1 := fun i q => by simp [DotDims.lhsIdx, dot_S16x2104x1088_S1x1088_S16x2104x1_2_1_01_0_n_n]; rfl
  hl2 := fun i q => by simp [DotDims.lhsIdx, dot_S16x2104x1088_S1x1088_S16x2104x1_2_1_01_0_n_n]; rfl
  hr0 := fun i q => by
    have h : (i 2).val < 1 := (i 2).isLt
    simp [DotDims.rhsIdx, dot_S16x2104x1088_S1x1088_S16x2104x1_2_1_01_0_n_n]
    omega
  hr1 := fun i q => by simp [DotDims.rhsIdx, dot_S16x2104x1088_S1x1088_S16x2104x1_2_1_01_0_n_n]; rfl

variable {α : Type}

/-- A vector `[c]` placed along the last axis of `[1, 1, c]`: at `(u, v, k)` it reads the vector at `k`. -/
theorem bid_c_11c_apply {c : ℕ} (x : (⟨1, ![c]⟩ : Shape).Idx → α) (h : (⟨1, ![c]⟩ : Shape).BroadcastsInDim ⟨3, ![1, 1, c]⟩ ![2])
    (u v : Fin 1) (k : Fin c) : broadcastInDim ⟨3, ![1, 1, c]⟩ ![2] h x (ix3 u v k) = x (ix1 k) :=
  broadcastInDim_apply _ h x _ _ fun a => by
    match a with
    | ⟨0, _⟩ =>
      show k.val = if c = 1 then 0 else k.val
      split
      · have := k.isLt; omega
      · rfl

/-- A `[1, 1, c]` array repeated along `[a, b, c]`: at `(p, q, k)` it reads the array at `(0, 0, k)`. -/
theorem bid_11c_abc_apply {a b c : ℕ} (v : (⟨3, ![1, 1, c]⟩ : Shape).Idx → α)
    (h : (⟨3, ![1, 1, c]⟩ : Shape).BroadcastsInDim ⟨3, ![a, b, c]⟩ ![0, 1, 2]) (p : Fin a) (q : Fin b) (k : Fin c) :
    broadcastInDim ⟨3, ![a, b, c]⟩ ![0, 1, 2] h v (ix3 p q k) = v (ix3 (0 : Fin 1) (0 : Fin 1) k) :=
  broadcastInDim_apply _ h v _ _ fun ax => by
    match ax with
    | ⟨0, _⟩ => show 0 = if (1 : ℕ) = 1 then 0 else p.val; rw [if_pos rfl]
    | ⟨1, _⟩ => show 0 = if (1 : ℕ) = 1 then 0 else q.val; rw [if_pos rfl]
    | ⟨2, _⟩ =>
      show k.val = if c = 1 then 0 else k.val
      split
      · have := k.isLt; omega
      · rfl

/-- An `[a, b, 1]` array cast to `[a, b]` reads, at `(p, q)`, the operand at `(p, q, 0)`. -/
theorem shapeCast_ab1_ab_apply {a b : ℕ} (x : (⟨3, ![a, b, 1]⟩ : Shape).Idx → α)
    (h : (⟨3, ![a, b, 1]⟩ : Shape).ShapeCasts ⟨2, ![a, b]⟩) (p : Fin a) (q : Fin b) :
    shapeCast ⟨2, ![a, b]⟩ x h (ix2 p q) = x (ix3 p q (0 : Fin 1)) :=
  shapeCast_apply x h _ _ (by
    rw [Shape.rowMajor_val_three, Shape.rowMajor_val_two]
    show (p.val * b + q.val) * 1 + 0 = p.val * b + q.val
    rw [Nat.mul_one, Nat.add_zero])

/-- The second program's hidden layer at (b, n, g): max(Σ_f X[b, n, f] · W1[g, f] + b1[g], 0). -/
theorem hiddenR_apply (X : FVec Ideal S16x2104x1088 .f32) (a3 : FVec Ideal S1088x1088 .f32) (a4 : FVec Ideal S1088 .f32)
    (b : Fin 16) (n : Fin 2104) (g : Fin 1088) :
    maximumf
        (addf (Host.dotGeneral dot_S16x2104x1088_S1088x1088_S16x2104x1088_2_1_01_0_n_n none X a3)
          (broadcastInDim S16x2104x1088 ![0, 1, 2] bcast_S1x1x1088_S16x2104x1088_0_1_2
            (broadcastInDim S1x1x1088 ![2] bcast_S1088_S1x1x1088_2 a4)))
        (broadcastInDim S16x2104x1088 ![] bcast_S_S16x2104x1088 (constant (F := Ideal) S_ .f32 0x00000000#32)) (ix3 b n g)
      = max ((∑ f : Fin 1088, X (ix3 b n f) * a3 (ix2 g f)) + a4 (ix1 g)) 0 := by
  rw [maximumf_apply, addf_apply, Cert.LibHostRead.bid_scalar_apply, constant_apply, Ideal.ofBits_zero_f32]
  refine congrArg (fun t => max t (0 : EReal)) ?_
  refine congrArg₂ (· + ·) ?_ ?_
  · exact dotGeneral_row_apply (φ₁ := .f32) (φ₂ := .f32) _ row1 X a3 b n g
  · exact (bid_11c_abc_apply _ _ b n g).trans (bid_c_11c_apply a4 _ 0 0 g)

/-- The second program's perceptron at (b, n) is the perceptron of feature row (b, n). -/
theorem mlpR_apply (X : FVec Ideal S16x2104x1088 .f32) (a3 : FVec Ideal S1088x1088 .f32) (a4 : FVec Ideal S1088 .f32)
    (a5 : FVec Ideal S1x1088 .f32) (a6 : FVec Ideal S1 .f32) (b : Fin 16) (n : Fin 2104) :
    Cert.Stages.mlpR X a3 a4 a5 a6 (ix2 b n)
      = Cert.Stages.mlpAt (fun f => X (ix3 b n f)) (fun g f => a3 (ix2 g f)) (fun g => a4 (ix1 g))
          (fun g => a5 (ix2 (0 : Fin 1) g)) (a6 (ix1 (0 : Fin 1))) := by
  unfold Cert.Stages.mlpR Cert.Stages.mlpAt
  refine (shapeCast_ab1_ab_apply _ _ b n).trans ?_
  rw [addf_apply]
  refine congrArg₂ (· + ·) ?_ ?_
  · refine (dotGeneral_row_apply (φ₁ := .f32) (φ₂ := .f32) _ row2 _ a5 b n 0).trans ?_
    refine Finset.sum_congr rfl fun g _ => ?_
    exact congrArg (· * a5 (ix2 (0 : Fin 1) g)) (hiddenR_apply X a3 a4 b n g)
  · exact (bid_11c_abc_apply _ _ b n 0).trans (bid_c_11c_apply a6 _ 0 0 0)

end Reference

end Cert.MlpRead

end
-- ==== Proof.LayoutRead.lean ====
/-
  Four layout reads of the first program's operands and result.

  The first program flattens the [16, 2104] pair axes to 33664 rows, appends 128 zero rows, and narrows; it transposes W1
  and turns W2's one row into a column; at the end it drops the 128 extra results and restores [16, 2104]. Each of these is
  read here at one index: the flattened row p = 2104 · b + n is pair (b, n).
-/
import proofs.«138655_j5403068858494_1_alg».proof.Proof.Stages
import proofs.«138655_j5403068858494_1_alg».proof.Proof.LibHostRead
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.MlpRead

open Idealize.ShloMosaic Idealize.ShloMosaic.ValueIdx
open Cert.KernelIdeal Cert.KernelIdeal.Facts₀

/-- W1 transposed and narrowed reads, at (f, g), W1 at (g, f). -/
theorem w1T_apply (a3 : FVec Ideal S1088x1088 .f32) (f g : Fin 1088) :
    Cert.Stages.w1T (F := Ideal) a3 (ix2 f g) = a3 (ix2 g f) := by
  unfold Cert.Stages.w1T
  refine (truncf_apply (φ := .f32) (ψ := .bf16) _ bitsLt_bf16_f32 (ix2 f g)).trans ?_
  exact transpose_ix2_apply a3 _ f g

/-- W2's row as a narrowed column reads, at (g, 0), W2 at (0, g). -/
theorem w2Col_apply (a5 : FVec Ideal S1x1088 .f32) (g : Fin 1088) :
    Cert.Stages.w2Col (F := Ideal) a5 (ix2 g (0 : Fin 1)) = a5 (ix2 (0 : Fin 1) g) := by
  unfold Cert.Stages.w2Col
  refine (truncf_apply (φ := .f32) (ψ := .bf16) _ bitsLt_bf16_f32 (ix2 g (0 : Fin 1))).trans ?_
  exact (Cert.LibHostRead.bid_a_a1_apply _ _ g 0).trans (shapeCast_1a_a_apply a5 _ g)

/-- The flattened, padded, narrowed feature rows read, at row p = 2104 · b + n, the feature row of pair (b, n). -/
theorem xPad_apply (X : FVec Ideal S16x2104x1088 .f32) (b : Fin 16) (n : Fin 2104) (f : Fin 1088) (p : Fin 33792)
    (hp : p.val = 2104 * b.val + n.val) : Cert.Stages.xPad (F := Ideal) X (ix2 p f) = X (ix3 b n f) := by
  have hlt : p.val < 33664 := by have := b.isLt; have := n.isLt; omega
  unfold Cert.Stages.xPad
  refine (truncf_apply (φ := .f32) (ψ := .bf16) _ bitsLt_bf16_f32 (ix2 p f)).trans ?_
  refine (pad_apply_of_inside _ _ _ _ _ _ _ (ix2 p f) (ix2 (⟨p.val, hlt⟩ : Fin 33664) f) fun a => ?_).trans ?_
  · match a with
    | ⟨0, _⟩ => show p.val = 0 + p.val * (0 + 1); omega
    | ⟨1, _⟩ => show f.val = 0 + f.val * (0 + 1); omega
  · refine shapeCast_apply X _ _ (ix3 b n f) ?_
    rw [Shape.rowMajor_val_three, Shape.rowMajor_val_two]
    show (b.val * 2104 + n.val) * 1088 + f.val = p.val * 1088 + f.val
    omega

/-- The results cut back to 33664 entries and folded to [16, 2104] read, at (b, n), the entry p = 2104 · b + n. -/
theorem unpad_apply (y : FVec Ideal S33792 .f32) (b : Fin 16) (n : Fin 2104) (p : Fin 33792)
    (hp : p.val = 2104 * b.val + n.val) : Cert.Stages.unpad (F := Ideal) y (ix2 b n) = y (ix1 p) := by
  have hlt : p.val < 33664 := by have := b.isLt; have := n.isLt; omega
  unfold Cert.Stages.unpad
  refine (shapeCast_apply _ _ (ix2 b n) (ix1 (⟨p.val, hlt⟩ : Fin 33664)) ?_).trans ?_
  · rw [Shape.rowMajor_val_two, Shape.rowMajor_val_one]
    show p.val = b.val * 2104 + n.val
    omega
  · refine extractStridedSlice_apply _ y _ _ (ix1 p) fun a => ?_
    match a with
    | ⟨0, _⟩ => show p.val = 0 + p.val; omega

end Cert.MlpRead

end
-- ==== Proof.Bridge.lean ====
/-
  The first program's result, cut back and folded, is the second program's perceptron.

  The row-block computation leaves, at entry p of its 33792 results, the perceptron of row p of the flattened and padded
  feature rows, with W1 transposed and W2's row as a column. Entry p = 2104 · b + n of the first 33664 is pair (b, n):
  there the padded row is feature row (b, n), the transposed W1 at (f, g) is W1 at (g, f), and the column at (g, 0) is W2
  at (0, g); so the value is the perceptron of feature row (b, n), which is what the second program's two contractions
  compute at (b, n).
-/
import proofs.«138655_j5403068858494_1_alg».proof.Proof.KernelBlocks
import proofs.«138655_j5403068858494_1_alg».proof.Proof.MlpRead
import proofs.«138655_j5403068858494_1_alg».proof.Proof.LayoutRead
import proofs.«138655_j5403068858494_1_alg».proof.Proof.Stages

noncomputable section

namespace Cert.Bridge

open Idealize.ShloMosaic Idealize.ShloMosaic.ValueIdx
open Cert.KernelIdeal

/-- The body's stored value at local row r is the perceptron of its block's feature row r. -/
theorem payloadReads : Cert.KernelIdeal.BlockValue.PayloadReads :=
  fun x0 x1 x2 x3 x4 r => Cert.MlpRead.pay_apply x0 x1 x2 x3 x4 r

/-- The perceptron depends on its feature row, its first weights and its output weights only through their values. -/
theorem mlpAt_congr {x x' : Fin 1088 → EReal} {w w' : Fin 1088 → Fin 1088 → EReal} {v v' : Fin 1088 → EReal}
    (b1 : Fin 1088 → EReal) (b2 : EReal) (hx : x = x') (hw : w = w') (hv : v = v') :
    Cert.Stages.mlpAt x w b1 v b2 = Cert.Stages.mlpAt x' w' b1 v' b2 := by
  subst hx hw hv; rfl

/-- The result array of the row-block computation over the prepared operands, cut back to the 33664 pairs and folded to
    [16, 2104], is the second program's perceptron of the feature rows. -/
theorem bridge (X : FVec Ideal S16x2104x1088 .f32) (a3 : FVec Ideal S1088x1088 .f32) (a4 : FVec Ideal S1088 .f32)
    (a5 : FVec Ideal S1x1088 .f32) (a6 : FVec Ideal S1 .f32) :
    Cert.Stages.unpad (F := Ideal)
        (Cert.KernelIdeal.BlockValue.rowMlp (Cert.Stages.xPad (F := Ideal) X) (Cert.Stages.w1T (F := Ideal) a3) a4
          (Cert.Stages.w2Col (F := Ideal) a5) a6)
      = Cert.Stages.mlpR X a3 a4 a5 a6 := by
  funext i
  obtain ⟨b, n, rfl⟩ : ∃ (b : Fin 16) (n : Fin 2104), i = ix2 b n := ⟨i 0, i 1, eq_ix2 i⟩
  have hlt : 2104 * b.val + n.val < 33792 := by have := b.isLt; have := n.isLt; omega
  refine (Cert.MlpRead.unpad_apply _ b n (⟨2104 * b.val + n.val, hlt⟩ : Fin 33792) rfl).trans ?_
  refine Eq.trans ?_ (Cert.MlpRead.mlpR_apply X a3 a4 a5 a6 b n).symm
  have h0 : (fun f : Fin 1088 => Cert.Stages.xPad (F := Ideal) X (ix2 (⟨2104 * b.val + n.val, hlt⟩ : Fin 33792) f))
      = fun f => X (ix3 b n f) :=
    funext fun f => Cert.MlpRead.xPad_apply X b n f _ rfl
  have h1 : (fun g f : Fin 1088 => Cert.Stages.w1T (F := Ideal) a3 (ix2 f g)) = fun g f => a3 (ix2 g f) :=
    funext fun g => funext fun f => Cert.MlpRead.w1T_apply a3 f g
  have h3 : (fun g : Fin 1088 => Cert.Stages.w2Col (F := Ideal) a5 (ix2 g (0 : Fin 1))) = fun g => a5 (ix2 (0 : Fin 1) g) :=
    funext fun g => Cert.MlpRead.w2Col_apply a5 g
  exact mlpAt_congr (fun g => a4 (ix1 g)) (a6 (ix1 (0 : Fin 1))) h0 h1 h3

end Cert.Bridge

end
-- ==== Proof.lean ====
/-
  The certificate: a windowed-pair perceptron computed in row blocks equals its reference on the extended reals.

  For each of 16 batches and each of the 2104 pairs (i, j) of utterances with |j - i| <= 8, both programs form the 1088
  features [H_emo[i] ; H_cause[j] ; smoothed[pair]] — smoothed = exp(-(rel - rel^T)^2) · pos_emb[rel + 8] — and return
  pred = (max(couples · W1^T + b1, 0)) · W2^T + b2 together with the integer pairs (i + 1, j + 1).

  The first program looks rows up with a sentinel for out-of-range indices, reads rel + 8 and rel as a float from
  precomputed tables, flattens the pairs to 33664 rows, pads them to 33792, and computes the perceptron in 33 blocks of
  1024 rows, keeping the first 33664 results. The second looks rows up plainly, computes rel + 8 and the float of rel,
  and contracts over the feature axis in one step. They agree because (a) every table entry is in range, so no sentinel
  is ever placed, and the tables agree entry by entry (decided over the 2104 entries); (b) entry p of the block
  computation's result is the perceptron of feature row p — the same sums in the same order as the reference's two
  contractions, narrowing to bf16 being the identity on the extended reals; (c) the padding rows are cut away again.
  No law of arithmetic is needed beyond reading each operation at an index, so the inputs' finiteness is not used.
-/
import proofs.«138655_j5403068858494_1_alg».proof.Defs
import proofs.«138655_j5403068858494_1_alg».proof.Proof.Gen.Kernel
import proofs.«138655_j5403068858494_1_alg».proof.Proof.Gen.Kernel.Frame
import proofs.«138655_j5403068858494_1_alg».proof.Proof.Gen.KernelIdeal
import proofs.«138655_j5403068858494_1_alg».proof.Proof.Gen.KernelIdeal.Frame
import proofs.«138655_j5403068858494_1_alg».proof.Proof.Gen.ReferenceIdeal
import proofs.«138655_j5403068858494_1_alg».proof.Proof.Gen.Pre_finite_inputs
import proofs.«138655_j5403068858494_1_alg».proof.Proof.KernelRun
import proofs.«138655_j5403068858494_1_alg».proof.Proof.RefRun
import proofs.«138655_j5403068858494_1_alg».proof.Proof.Lookups
import proofs.«138655_j5403068858494_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.RefRun.run (F := Ideal) m ρ)

/-- Both runs end with the float result at the reference's perceptron of the reference's feature rows of the (agreeing)
    arguments, and the integer result at the pairs from the reference's tables. -/
theorem algebraic : Cert.algebraic_KernelIdeal_ReferenceIdeal := by
  intro m ρ m' ρ' _ hagree
  refine ⟨fun c => Cert.Stages.mlpR (F := Ideal)
      (Cert.Stages.couplesR (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    fun _ => Cert.Stages.pairs Cert.Stages.rEmo Cert.Stages.rCau, ?_, ?_⟩
  · refine (θ_run Cert.KernelIdeal.defs _ _).mono (fun _ h c => ?_) (Cert.KernelIdeal.RunValue.run m ρ Cert.Bridge.payloadReads)
    obtain ⟨h0, h1, hargs⟩ := h c
    refine ⟨h0.trans ?_, h1.trans Cert.Lookups.pairs_eq, hargs⟩
    rw [Cert.Bridge.bridge, Cert.Lookups.couples_eq]
  · refine (θ_run Cert.ReferenceIdeal.defs _ _).mono (fun _ h c => ?_) (Cert.ReferenceIdeal.RefRun.run (F := Ideal) m' ρ')
    obtain ⟨h0, h1, hargs⟩ := h c
    obtain ⟨e0, e1, e2, e3, e4, e5, e6⟩ := hagree c
    refine ⟨h0.trans ?_, h1, hargs⟩
    rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
